-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512x512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S1024x512 .f32) (main_arg5 : FVec F S1024 .f32) (main_arg6 : FVec F S512x512 .f32) (main_arg7 : FVec F S512 .f32) (main_arg8 : FVec F S512x512 .f32) (main_arg9 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x512 .f32) (main_arg1 : FVec F S16384x512 .f32) (main_arg2 : FVec F S1024x512 .f32) (main_arg3 : FVec F S1024 .f32) (main_arg4 : FVec F S1024x512 .f32) (main_arg5 : FVec F S1024 .f32) (main_arg6 : FVec F S512x512 .f32) (main_arg7 : FVec F S512 .f32) (main_arg8 : FVec F S512x512 .f32) (main_arg9 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S16384x512 : Shape := ⟨2, ![16384, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S1536x512 : Shape := ⟨2, ![1536, 512]⟩
abbrev S1536 : Shape := ⟨1, ![1536]⟩
abbrev S1x1536 : Shape := ⟨2, ![1, 1536]⟩
abbrev S512x1536 : Shape := ⟨2, ![512, 1536]⟩
abbrev S512x1024 : Shape := ⟨2, ![512, 1024]⟩
abbrev S512x1 : Shape := ⟨2, ![512, 1]⟩

abbrev nBuf : Space → Nat
  | .hbm => 19
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S1024, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S1536x512, .f32⟩
  | .hbm, ⟨11, _⟩ => ⟨S1536x512, .bf16⟩
  | .hbm, ⟨12, _⟩ => ⟨S1536x512, .f32⟩
  | .hbm, ⟨13, _⟩ => ⟨S1536x512, .bf16⟩
  | .hbm, ⟨14, _⟩ => ⟨S1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1536x512, .bf16⟩
  | .local _ .vmem, ⟨5, _⟩ => ⟨S1x1536, .f32⟩
  | .local _ .vmem, ⟨6, _⟩ => ⟨S1536x512, .bf16⟩
  | .local _ .vmem, ⟨7, _⟩ => ⟨S1x1536, .f32⟩
  | .local _ .vmem, ⟨8, _⟩ => ⟨S512x512, .f32⟩
  | .local _ .vmem, ⟨9, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x512_S512x512_S1536x512_d0 : Shape.Concatenates [S1024x512, S512x512] S1536x512 0
  bitsLt_bf16_f32 : FTy.bits .bf16 < FTy.bits .f32
  concatenates_S1024_S512_S1536_d0 : Shape.Concatenates [S1024, S512] S1536 0
  shapeCasts_S1536_S1x1536 : S1536.ShapeCasts S1x1536
  inb_S512x512_S512x512_0_0 : ∀ a, (![0, 0] : Fin 2 → Nat) a + S512x512.size a ≤ S512x512.size a
  h_S512x512 : 0 < S512x512.numel
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x1024 : S512x1536.Slices ![0, 0] S512x1024
  reduces_S512x1024_S512 : S512x1024.Reduces [1] S512
  shapeCasts_S512_S512x1 : S512.ShapeCasts S512x1
  broadcasts_S512x1_S512x1024 : S512x1.Broadcasts S512x1024
  slices_S512x1024_o0_0_S512x512 : S512x1024.Slices ![0, 0] S512x512
  slices_S512x1024_o0_512_S512x512 : S512x1024.Slices ![0, 512] S512x512
  slices_S512x1536_o0_1024_S512x512 : S512x1536.Slices ![0, 1024] S512x512
  reduces_S512x512_S512 : S512x512.Reduces [1] S512
  broadcasts_S512x1_S512x512 : S512x1.Broadcasts S512x512
  dot_S512x512_S1536x512_S512x1536_1_1_0_0_n_n_wf : DotDims.WF S512x512 S1536x512 S512x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x512.size a ≤ S1536x512.size a
  hwx0_2 : ∀ i : grid0.Coords, EltTy.bits .bf16 = 32 ∨ (Rect.block (s := S1536x512) S1536x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x512.size a ≤ S1536x512.size a
  hwx0_4 : ∀ i : grid0.Coords, EltTy.bits .bf16 = 32 ∨ (Rect.block (s := S1536x512) S1536x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)

variable [Facts₀]

def dot_S512x512_S1536x512_S512x1536_1_1_0_0_n_n : DotDims S512x512 S1536x512 S512x1536 where
  lhsContracting := [1]
  rhsContracting := [1]
  lhsNonContracting := [0]
  rhsNonContracting := [0]
  lhsBatch := []
  rhsBatch := []
  wf := dot_S512x512_S1536x512_S512x1536_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1536x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1536x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S1024 : Shape := ⟨1, ![1024]⟩
abbrev S512x512 : Shape := ⟨2, ![512, 512]⟩
abbrev S512 : Shape := ⟨1, ![512]⟩
abbrev S512x1024 : Shape := ⟨2, ![512, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x512 : Shape := ⟨2, ![1, 512]⟩

abbrev nBuf : Space → Nat
  | .hbm => 142
  | .vmem => 0
  | .smem => 0
  | _ => 0

abbrev hbmTy0_0 (i : Nat) : BufTy := match i % 128 with
  | 0 => ⟨S16384x512, .f32⟩
  | 1 => ⟨S16384x512, .f32⟩
  | 2 => ⟨S1024x512, .f32⟩
  | 3 => ⟨S1024, .f32⟩
  | 4 => ⟨S1024x512, .f32⟩
  | 5 => ⟨S1024, .f32⟩
  | 6 => ⟨S512x512, .f32⟩
  | 7 => ⟨S512, .f32⟩
  | 8 => ⟨S512x512, .f32⟩
  | 9 => ⟨S512, .f32⟩
  | 10 => ⟨S512x1024, .f32⟩
  | 11 => ⟨S16384x1024, .f32⟩
  | 12 => ⟨S1x1024, .f32⟩
  | 13 => ⟨S16384x1024, .f32⟩
  | 14 => ⟨S16384x1024, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S16384x1024, .f32⟩
  | 22 => ⟨S16384x1024, .f32⟩
  | 23 => ⟨S16384x1024, .f32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S16384x1024, .f32⟩
  | 31 => ⟨S16384x1024, .f32⟩
  | 32 => ⟨S_, .f32⟩
  | 33 => ⟨S16384x1, .f32⟩
  | 34 => ⟨S16384x1, .f32⟩
  | 35 => ⟨S16384x1, .f32⟩
  | 36 => ⟨S16384x1024, .f32⟩
  | 37 => ⟨S16384x1024, .f32⟩
  | 38 => ⟨S512x1024, .f32⟩
  | 39 => ⟨S16384x1024, .f32⟩
  | 40 => ⟨S1x1024, .f32⟩
  | 41 => ⟨S16384x1024, .f32⟩
  | 42 => ⟨S16384x1024, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S16384x1024, .f32⟩
  | 50 => ⟨S16384x1024, .f32⟩
  | 51 => ⟨S16384x1024, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S16384x1024, .f32⟩
  | 59 => ⟨S16384x1024, .f32⟩
  | 60 => ⟨S_, .f32⟩
  | 61 => ⟨S16384x1, .f32⟩
  | 62 => ⟨S16384x1, .f32⟩
  | 63 => ⟨S16384x1, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S_, .f32⟩
  | 73 => ⟨S16384x1024, .f32⟩
  | 74 => ⟨S16384x1024, .f32⟩
  | 75 => ⟨S16384x512, .f32⟩
  | 76 => ⟨S16384x512, .f32⟩
  | 77 => ⟨S512x512, .f32⟩
  | 78 => ⟨S16384x512, .f32⟩
  | 79 => ⟨S1x512, .f32⟩
  | 80 => ⟨S16384x512, .f32⟩
  | 81 => ⟨S16384x512, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S16384x512, .f32⟩
  | 89 => ⟨S16384x512, .f32⟩
  | 90 => ⟨S16384x512, .f32⟩
  | 91 => ⟨S_, .f32⟩
  | 92 => ⟨S16384, .f32⟩
  | 93 => ⟨S16384x1, .f32⟩
  | 94 => ⟨S_, .f32⟩
  | 95 => ⟨S16384x1, .f32⟩
  | 96 => ⟨S16384x1, .f32⟩
  | 97 => ⟨S16384x512, .f32⟩
  | 98 => ⟨S16384x512, .f32⟩
  | 99 => ⟨S_, .f32⟩
  | 100 => ⟨S16384x1, .f32⟩
  | 101 => ⟨S16384x1, .f32⟩
  | 102 => ⟨S16384x1, .f32⟩
  | 103 => ⟨S16384x512, .f32⟩
  | 104 => ⟨S16384x512, .f32⟩
  | 105 => ⟨S512x512, .f32⟩
  | 106 => ⟨S16384x512, .f32⟩
  | 107 => ⟨S1x512, .f32⟩
  | 108 => ⟨S16384x512, .f32⟩
  | 109 => ⟨S16384x512, .f32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S16384x512, .f32⟩
  | 117 => ⟨S16384x512, .f32⟩
  | 118 => ⟨S16384x512, .f32⟩
  | 119 => ⟨S_, .f32⟩
  | 120 => ⟨S16384, .f32⟩
  | 121 => ⟨S16384x1, .f32⟩
  | 122 => ⟨S_, .f32⟩
  | 123 => ⟨S16384x1, .f32⟩
  | 124 => ⟨S16384x1, .f32⟩
  | 125 => ⟨S16384x512, .f32⟩
  | 126 => ⟨S16384x512, .f32⟩
  | 127 => ⟨S_, .f32⟩
  | _ => ⟨S16384x512, .f32⟩

abbrev hbmTy0_1 (i : Nat) : BufTy := match i % 128 with
  | 0 => ⟨S16384x1, .f32⟩
  | 1 => ⟨S16384x1, .f32⟩
  | 2 => ⟨S16384x1, .f32⟩
  | 3 => ⟨S16384x512, .f32⟩
  | 4 => ⟨S16384x512, .f32⟩
  | 5 => ⟨S16384x512, .f32⟩
  | 6 => ⟨S16384x512, .f32⟩
  | 7 => ⟨S16384x512, .f32⟩
  | 8 => ⟨S_, .f32⟩
  | 9 => ⟨S16384x512, .f32⟩
  | 10 => ⟨S16384x512, .f32⟩
  | 11 => ⟨S16384x512, .f32⟩
  | 12 => ⟨S16384x512, .f32⟩
  | 13 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_20 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  slices_S16384x1024_S16384x512_0_0 : S16384x1024.Slices ![0, 0] S16384x512
  slices_S16384x1024_S16384x512_0_512 : S16384x1024.Slices ![0, 512] S16384x512
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  dot_S16384x512_S512x1024_S16384x1024_1_0_0_1_n_n_wf : DotDims.WF S16384x512 S512x1024 S16384x1024 [1] [0] [0] [1] [] []
  dot_S16384x512_S512x512_S16384x512_1_0_0_1_n_n_wf : DotDims.WF S16384x512 S512x512 S16384x512 [1] [0] [0] [1] [] []

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.RowLaw.lean ====
/-
  The arithmetic of one row of a layer-normalised gated recurrent cell, over the extended reals.

  A row `y` of length `n` is normalised by its mean `μ = (∑ y) / N` and its variance `σ² = (∑ (y - μ)²) / N`:
  one text multiplies the centred entry by the reciprocal square root of `σ² + ε`, the other divides it by the
  square root. Squares are nonnegative on the extended reals (`⊥ · ⊥ = ⊤`), so `σ² + ε` is a positive real or `⊤`
  whenever `N` and `ε` are positive reals, and on that range the two texts agree for every centred entry,
  infinite ones included: no finiteness of the row is needed.
-/
import Idealize.ShloMosaic.PureOps.Ideal

noncomputable section

namespace Cert.GruRow

open Idealize.ShloMosaic

/-- A square is nonnegative on the extended reals. -/
theorem mul_self_nonneg (a : EReal) : 0 ≤ a * a := by
  induction a using EReal.rec with
  | bot => rw [EReal.bot_mul_bot]; exact le_top
  | top => rw [EReal.top_mul_top]; exact le_top
  | coe r => rw [← EReal.coe_mul]; exact_mod_cast _root_.mul_self_nonneg r

/-- The quotient of a nonnegative extended real by a positive real is nonnegative. -/
theorem div_nonneg_of_pos {s : EReal} (hs : 0 ≤ s) {r : ℝ} (hr : 0 < r) : 0 ≤ Ideal.div s (r : EReal) := by
  rw [Ideal.div_coe hr.ne']
  exact EReal.mul_nonneg hs (by exact_mod_cast (one_div_pos.mpr hr).le)

/-- For a positive `v` (a positive real or `⊤`), multiplying by the reciprocal square root is dividing by the
    square root, whatever the numerator. -/
theorem mul_rsqrt_eq_div_sqrt (a v : EReal) (hv : 0 < v) : a * Ideal.rsqrt v = Ideal.div a (Ideal.sqrt v) := by
  induction v using EReal.rec with
  | bot => exact absurd hv (not_lt.mpr bot_le)
  | top => rw [Ideal.rsqrt_top, Ideal.sqrt_top, Ideal.div, if_neg EReal.top_ne_zero, EReal.inv_top]
  | coe r =>
    have hr : 0 < r := EReal.coe_pos.mp hv
    have hs : (Real.sqrt r : EReal) ≠ 0 := by exact_mod_cast (Real.sqrt_pos.mpr hr).ne'
    rw [Ideal.rsqrt_coe, Ideal.sqrt_coe, if_neg (not_lt.mpr hr.le), if_neg hr.ne', if_neg (not_lt.mpr hr.le),
      Ideal.div, if_neg hs, EReal.coe_inv]

variable {n : Nat}

/-- The mean of a row: its sum over the count `N`. -/
def mean (N : EReal) (y : Fin n → EReal) : EReal := Ideal.div (∑ c, y c) N

/-- The variance of a row: the mean of the squared deviations from the mean. -/
def var (N : EReal) (y : Fin n → EReal) : EReal := Ideal.div (∑ c, (y c - mean N y) * (y c - mean N y)) N

/-- The normalised entry, by the reciprocal square root. -/
def normMul (N ε : EReal) (y : Fin n → EReal) (j : Fin n) : EReal := (y j - mean N y) * Ideal.rsqrt (var N y + ε)

/-- The normalised entry, by the quotient with the square root. -/
def normDiv (N ε : EReal) (y : Fin n → EReal) (j : Fin n) : EReal := Ideal.div (y j - mean N y) (Ideal.sqrt (var N y + ε))

/-- The variance plus a positive `ε` is positive. -/
theorem var_add_pos {N ε : EReal} {r e : ℝ} (hN : N = (r : EReal)) (hr : 0 < r) (hε : ε = (e : EReal)) (he : 0 < e)
    (y : Fin n → EReal) : 0 < var N y + ε := by
  have h0 : 0 ≤ var N y := by
    unfold var; rw [hN]
    exact div_nonneg_of_pos (Finset.sum_nonneg fun c _ => mul_self_nonneg _) hr
  have hε' : (0 : EReal) < ε := by rw [hε]; exact_mod_cast he
  exact lt_of_lt_of_le hε' (le_add_of_nonneg_left h0)

/-- The two texts of the normalisation agree, for positive real `N` and `ε`. -/
theorem normMul_eq_normDiv {N ε : EReal} {r e : ℝ} (hN : N = (r : EReal)) (hr : 0 < r) (hε : ε = (e : EReal)) (he : 0 < e)
    (y : Fin n → EReal) (j : Fin n) : normMul N ε y j = normDiv N ε y j :=
  mul_rsqrt_eq_div_sqrt _ _ (var_add_pos hN hr hε he y)

/-- An affine row: `x · Wᵀ + b` at column `c`. -/
def affine {k : Nat} (x : Fin k → EReal) (W : Fin n → Fin k → EReal) (b : Fin n → EReal) (c : Fin n) : EReal :=
  (∑ t, x t * W c t) + b c

end Cert.GruRow

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.KernelNorm.lean ====
/-
  A row of a `[512, w]` matrix, normalised as a kernel writes it — the row sum as a lane reduction, the mean kept
  as a column and repeated across the row, the squared deviations summed again — read at an entry `(p, c)`:
  the sums are sums over the row's `w` entries, the repeated column is the row's own mean.
-/
import Idealize.ShloMosaic.Lib.Pipeline.Value
import Idealize.ShloMosaic.Lib.ValueIdx
import Idealize.ShloMosaic.PureOps.Ideal.Laws
import proofs.«175681_j4776003633435_2_alg».proof.Proof.RowLaw
import proofs.«175681_j4776003633435_2_alg».proof.Proof.LibRepeat
import proofs.«175681_j4776003633435_2_alg».proof.Proof.LibColumn

noncomputable section

namespace Cert.GruRow

open Idealize.ShloMosaic Idealize.ShloMosaic.ValueIdx

variable {w : Nat}

/-- A lane sum of a `[512, w]` matrix at row `p`: the sum of the row's entries. -/
theorem laneSum_apply (v : FVec Ideal ⟨2, ![512, w]⟩ .f32) (h : Shape.Reduces ⟨2, ![512, w]⟩ [1] ⟨1, ![512]⟩)
    (hφ : FKind.Formats .f32) (hacc : (0x00000000#32 : BitVec 32) = FKind.add.neutral .f32 hφ) (p : Fin 512) :
    multiReduction .add [1] ⟨1, ![512]⟩ v 0x00000000#32 h hφ hacc (ix1 p) = ∑ c : Fin w, v (ix2 p c) := by
  refine (Ideal.multiReduction_add_single v 0x00000000#32 h hφ hacc (ix1 p)).trans ?_
  show ∑ c : Fin w, v (h.lift (ix1 p) c) = _
  refine Finset.sum_congr rfl fun c _ => congrArg v (funext fun a => Fin.ext ?_)
  match a with
  | ⟨0, _⟩ => rfl
  | ⟨1, _⟩ => rfl

/-- The centred entry: the matrix less its row means (kept as a column, repeated across the row), at `(p, c)`, is the
    entry less the mean of row `p`. -/
theorem centred_apply (v : FVec Ideal ⟨2, ![512, w]⟩ .f32) (h : Shape.Reduces ⟨2, ![512, w]⟩ [1] ⟨1, ![512]⟩)
    (hφ : FKind.Formats .f32) (hacc : (0x00000000#32 : BitVec 32) = FKind.add.neutral .f32 hφ)
    (hc : (⟨1, ![512]⟩ : Shape).ShapeCasts ⟨2, ![512, 1]⟩) (hb : (⟨2, ![512, 1]⟩ : Shape).Broadcasts ⟨2, ![512, w]⟩)
    (N : Ideal .f32) (p : Fin 512) (c : Fin w) :
    subf v (broadcastTo ⟨2, ![512, w]⟩ (divf (shapeCast ⟨2, ![512, 1]⟩ (multiReduction .add [1] ⟨1, ![512]⟩ v 0x00000000#32 h hφ hacc) hc)
        (broadcast ⟨2, ![512, 1]⟩ N)) hb) (ix2 p c)
      = v (ix2 p c) - mean N (fun c' : Fin w => v (ix2 p c')) := by
  rw [subf_apply, Cert.Lib.Repeat.colRepeat_apply, divf_apply, Cert.Lib.Column.shapeCast_a_a1_apply, laneSum_apply, broadcast_apply]
  rfl

/-- The lane sum of the squared centred entries at row `p`: the sum of the row's squared deviations from its mean. -/
theorem sqDevSum_apply (v : FVec Ideal ⟨2, ![512, w]⟩ .f32) (h : Shape.Reduces ⟨2, ![512, w]⟩ [1] ⟨1, ![512]⟩)
    (hφ : FKind.Formats .f32) (hacc : (0x00000000#32 : BitVec 32) = FKind.add.neutral .f32 hφ)
    (hc : (⟨1, ![512]⟩ : Shape).ShapeCasts ⟨2, ![512, 1]⟩) (hb : (⟨2, ![512, 1]⟩ : Shape).Broadcasts ⟨2, ![512, w]⟩)
    (N : Ideal .f32) (p : Fin 512) :
    multiReduction .add [1] ⟨1, ![512]⟩
        (mulf (subf v (broadcastTo ⟨2, ![512, w]⟩ (divf (shapeCast ⟨2, ![512, 1]⟩ (multiReduction .add [1] ⟨1, ![512]⟩ v 0x00000000#32 h hφ hacc) hc)
            (broadcast ⟨2, ![512, 1]⟩ N)) hb))
          (subf v (broadcastTo ⟨2, ![512, w]⟩ (divf (shapeCast ⟨2, ![512, 1]⟩ (multiReduction .add [1] ⟨1, ![512]⟩ v 0x00000000#32 h hφ hacc) hc)
            (broadcast ⟨2, ![512, 1]⟩ N)) hb)))
        0x00000000#32 h hφ hacc (ix1 p)
      = ∑ c : Fin w, (v (ix2 p c) - mean N (fun c' : Fin w => v (ix2 p c'))) * (v (ix2 p c) - mean N (fun c' : Fin w => v (ix2 p c'))) := by
  rw [laneSum_apply]
  refine Finset.sum_congr rfl fun c _ => ?_
  rw [mulf_apply, centred_apply]

/-- The normalised entry as a kernel computes it from those two lane sums. -/
theorem normMul_of_sums (v : FVec Ideal ⟨2, ![512, w]⟩ .f32) (N ε s1 s2 : EReal) (p : Fin 512) (c : Fin w)
    (h1 : s1 = ∑ c : Fin w, v (ix2 p c))
    (h2 : s2 = ∑ c : Fin w, (v (ix2 p c) - mean N (fun c' : Fin w => v (ix2 p c'))) * (v (ix2 p c) - mean N (fun c' : Fin w => v (ix2 p c')))) :
    (v (ix2 p c) - Ideal.div s1 N) * Ideal.rsqrt (Ideal.div s2 N + ε) = normMul N ε (fun c' : Fin w => v (ix2 p c')) c := by
  subst h1 h2; rfl

/-- The whole normalisation as a kernel writes it — the centred matrix times the reciprocal square root of the
    variance column plus `ε`, that column repeated across the row — at `(p, c)`: row `p`, normalised, at `c`. -/
theorem kernelNorm_apply (v : FVec Ideal ⟨2, ![512, w]⟩ .f32) (h : Shape.Reduces ⟨2, ![512, w]⟩ [1] ⟨1, ![512]⟩)
    (hφ : FKind.Formats .f32) (hacc : (0x00000000#32 : BitVec 32) = FKind.add.neutral .f32 hφ)
    (hc : (⟨1, ![512]⟩ : Shape).ShapeCasts ⟨2, ![512, 1]⟩) (hb : (⟨2, ![512, 1]⟩ : Shape).Broadcasts ⟨2, ![512, w]⟩)
    (N ε : Ideal .f32) (p : Fin 512) (c : Fin w) :
    mulf (subf v (broadcastTo ⟨2, ![512, w]⟩ (divf (shapeCast ⟨2, ![512, 1]⟩ (multiReduction .add [1] ⟨1, ![512]⟩ v 0x00000000#32 h hφ hacc) hc)
          (broadcast ⟨2, ![512, 1]⟩ N)) hb))
        (broadcastTo ⟨2, ![512, w]⟩ (rsqrt (addf (divf (shapeCast ⟨2, ![512, 1]⟩ (multiReduction .add [1] ⟨1, ![512]⟩
            (mulf (subf v (broadcastTo ⟨2, ![512, w]⟩ (divf (shapeCast ⟨2, ![512, 1]⟩ (multiReduction .add [1] ⟨1, ![512]⟩ v 0x00000000#32 h hφ hacc) hc)
                (broadcast ⟨2, ![512, 1]⟩ N)) hb))
              (subf v (broadcastTo ⟨2, ![512, w]⟩ (divf (shapeCast ⟨2, ![512, 1]⟩ (multiReduction .add [1] ⟨1, ![512]⟩ v 0x00000000#32 h hφ hacc) hc)
                (broadcast ⟨2, ![512, 1]⟩ N)) hb)))
            0x00000000#32 h hφ hacc) hc) (broadcast ⟨2, ![512, 1]⟩ N)) (broadcast ⟨2, ![512, 1]⟩ ε))) hb) (ix2 p c)
      = normMul N ε (fun c' : Fin w => v (ix2 p c')) c := by
  rw [mulf_apply, centred_apply, Cert.Lib.Repeat.colRepeat_apply]
  show _ * Ideal.rsqrt (Ideal.div (shapeCast ⟨2, ![512, 1]⟩ _ hc (ix2 p (0 : Fin 1))) N + ε) = _
  rw [Cert.Lib.Column.shapeCast_a_a1_apply, sqDevSum_apply]
  rfl

variable {α : Type} {n : Nat}

/-- The first `w` columns of a `[512, n]` matrix, at `(p, c)`. -/
theorem colSlice0_apply (f : (⟨2, ![512, n]⟩ : Shape).Idx → α) (hs : (⟨2, ![512, n]⟩ : Shape).Slices ![0, 0] ⟨2, ![512, w]⟩)
    (hw : w ≤ n) (p : Fin 512) (c : Fin w) :
    extractStridedSlice ⟨2, ![512, w]⟩ ![0, 0] f hs (ix2 p c) = f (ix2 p ⟨c.val, by omega⟩) :=
  extractStridedSlice_apply _ f hs _ _ (fun a => match a with
    | ⟨0, _⟩ => by show p.val = 0 + p.val; omega
    | ⟨1, _⟩ => by show c.val = 0 + c.val; omega)

/-- The `w` columns from column `off` on of a `[512, n]` matrix, at `(p, c)`. -/
theorem colSliceOff_apply (off : Nat) (f : (⟨2, ![512, n]⟩ : Shape).Idx → α) (hs : (⟨2, ![512, n]⟩ : Shape).Slices ![0, off] ⟨2, ![512, w]⟩)
    (hw : off + w ≤ n) (p : Fin 512) (c : Fin w) :
    extractStridedSlice ⟨2, ![512, w]⟩ ![0, off] f hs (ix2 p c) = f (ix2 p ⟨c.val + off, by omega⟩) :=
  extractStridedSlice_apply _ f hs _ _ (fun a => match a with
    | ⟨0, _⟩ => by show p.val = 0 + p.val; omega
    | ⟨1, _⟩ => by show c.val + off = off + c.val; omega)

end Cert.GruRow

end
-- ==== Proof.Cell.lean ====
/-
  One entry of the gated recurrent cell, from the four affine rows of its input row and its state row.

  With `gate = σ(norm(a₁) + norm(b₁))` over 1024 columns — the update gate `z` its first 512 columns, the reset gate
  `r` its last 512 — the new state at column `q` is `(1 - z_q) · h_q + z_q · tanh(norm(a₂)_q + r_q · norm(b₂)_q)`.
  The normalisations are parameters, so the same text serves both ways of writing them; they agree when the counts
  and `ε` are the positive reals the programs spell.
-/
import proofs.«175681_j4776003633435_2_alg».proof.Proof.RowLaw

noncomputable section

namespace Cert.GruRow

open Idealize.ShloMosaic

/-- The count of the wide rows, `1024.0`. -/
def N1 : EReal := Ideal.ofBits .f32 0x44800000#32
/-- The count of the narrow rows, `512.0`. -/
def N2 : EReal := Ideal.ofBits .f32 0x44000000#32
/-- The variance offset, the single-precision value nearest `1e-5`. -/
def eps : EReal := Ideal.ofBits .f32 0x3727C5AC#32
/-- `1.0`. -/
def one : EReal := Ideal.ofBits .f32 0x3F800000#32

theorem N1_eq : N1 = ((1024 : ℝ) : EReal) := by
  unfold N1; simp [Ideal.ofBits, Ideal.ieee, -EReal.coe_mul]; norm_num
theorem N2_eq : N2 = ((512 : ℝ) : EReal) := by
  unfold N2; simp [Ideal.ofBits, Ideal.ieee, -EReal.coe_mul]; norm_num
theorem eps_eq : eps = (((10995116 : ℝ) / 2 ^ 40 : ℝ) : EReal) := by
  unfold eps; simp [Ideal.ofBits, Ideal.ieee, -EReal.coe_mul]; norm_num

theorem one_eq : one = 1 := by
  unfold one; simp [Ideal.ofBits, Ideal.ieee, -EReal.coe_mul]; norm_num

/-- The logistic function, spelt out with the program's `1.0`. -/
theorem logistic_eq (s : EReal) : Ideal.div one (one + Ideal.exp (-s)) = Ideal.logistic s := by
  rw [one_eq]; rfl

/-- The two ways of writing the normalisation are one function, at both widths. -/
theorem normMul_N1 {n : Nat} : @normMul n N1 eps = @normDiv n N1 eps :=
  funext fun y => funext fun j => normMul_eq_normDiv N1_eq (by norm_num) eps_eq (by positivity) y j
theorem normMul_N2 {n : Nat} : @normMul n N2 eps = @normDiv n N2 eps :=
  funext fun y => funext fun j => normMul_eq_normDiv N2_eq (by norm_num) eps_eq (by positivity) y j

/-- The cell's entry at column `q`. -/
def cellOf (nrm1 : (Fin 1024 → EReal) → Fin 1024 → EReal) (nrm2 : (Fin 512 → EReal) → Fin 512 → EReal)
    (a1 b1 : Fin 1024 → EReal) (a2 b2 : Fin 512 → EReal) (hrow : Fin 512 → EReal) (q : Fin 512) : EReal :=
  (one - Ideal.logistic (nrm1 a1 ⟨q.val, by omega⟩ + nrm1 b1 ⟨q.val, by omega⟩)) * hrow q
    + Ideal.logistic (nrm1 a1 ⟨q.val, by omega⟩ + nrm1 b1 ⟨q.val, by omega⟩)
      * Ideal.tanh (nrm2 a2 q + Ideal.logistic (nrm1 a1 ⟨q.val + 512, by omega⟩ + nrm1 b1 ⟨q.val + 512, by omega⟩) * nrm2 b2 q)

/-- The cell written with reciprocal square roots is the cell written with quotients by square roots. -/
theorem cellOf_mul_eq_div (a1 b1 : Fin 1024 → EReal) (a2 b2 : Fin 512 → EReal) (hrow : Fin 512 → EReal) (q : Fin 512) :
    cellOf (normMul N1 eps) (normMul N2 eps) a1 b1 a2 b2 hrow q = cellOf (normDiv N1 eps) (normDiv N2 eps) a1 b1 a2 b2 hrow q := by
  rw [normMul_N1, normMul_N2]

end Cert.GruRow

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.KernelCell.lean ====
/-
  The kernel's body at one entry of its output block.

  The body is a chain of vector operations over the six blocks it loads — the input rows `x`, the state rows `h`, the two
  stacked weight matrices and their two bias rows. Read at entry `(p, q)` of the output block, each link is a row
  operation on row `p`: the two fused products plus biases are affine rows of width 1536; their first 1024 columns,
  normalised and added, pass through the logistic function and give both gates; their last 512 columns, normalised,
  give the candidate; the result is the cell's entry at column `q`.
-/
import proofs.«175681_j4776003633435_2_alg».proof.Proof.Gen.KernelIdeal.Skeleton
import proofs.«175681_j4776003633435_2_alg».proof.Proof.KernelNorm
import proofs.«175681_j4776003633435_2_alg».proof.Proof.Cell
import proofs.«175681_j4776003633435_2_alg».proof.Proof.LibTransposedProduct

noncomputable section

namespace Cert.KernelIdeal.CellValue

open Cert.KernelIdeal Cert.KernelIdeal.Gen Idealize.ShloMosaic Idealize.ShloMosaic.ValueIdx Cert.GruRow

/-- The input-side product plus bias at `(p, c)`: the affine row of input row `p` at column `c`. -/
theorem pay2_apply (v0 : Vec Ideal S512x512 .f32) (v4 : Vec Ideal S1536x512 .bf16) (v9 : Vec Ideal S1x1536 .f32)
    (p : Fin 512) (c : Fin 1536) :
    k0_pay2 (F := Ideal) v0 v4 v9 (ix2 p c)
      = affine (fun k : Fin 512 => v0 (ix2 p k)) (fun (c' : Fin 1536) (k : Fin 512) => v4 (ix2 c' k)) (fun c' : Fin 1536 => v9 (ix2 (0 : Fin 1) c')) c := by
  unfold k0_pay2 affine
  refine (addf_apply _ _ _).trans ?_
  refine congrArg₂ (· + ·) ?_ ?_
  · rw [shapeCast_self]
    exact Cert.Lib.TransposedProduct.matmul_apply _ rfl none _ _ p c
  · rw [shapeCast_self]
    exact Cert.Lib.Repeat.rowRepeat_apply _ _ p c

/-- The state-side product plus bias at `(p, c)`. -/
theorem pay3_apply (v1 : Vec Ideal S512x512 .f32) (v6 : Vec Ideal S1536x512 .bf16) (v14 : Vec Ideal S1x1536 .f32)
    (p : Fin 512) (c : Fin 1536) :
    k0_pay3 (F := Ideal) v1 v6 v14 (ix2 p c)
      = affine (fun k : Fin 512 => v1 (ix2 p k)) (fun (c' : Fin 1536) (k : Fin 512) => v6 (ix2 c' k)) (fun c' : Fin 1536 => v14 (ix2 (0 : Fin 1) c')) c := by
  unfold k0_pay3 affine
  refine (addf_apply _ _ _).trans ?_
  refine congrArg₂ (· + ·) ?_ ?_
  · rw [shapeCast_self]
    exact Cert.Lib.TransposedProduct.matmul_apply _ rfl none _ _ p c
  · rw [shapeCast_self]
    exact Cert.Lib.Repeat.rowRepeat_apply _ _ p c

/-- The normalised first 1024 columns of the input-side rows. -/
theorem pay4_apply (v0 : Vec Ideal S512x512 .f32) (v4 : Vec Ideal S1536x512 .bf16) (v9 : Vec Ideal S1x1536 .f32)
    (p : Fin 512) (c : Fin 1024) :
    k0_pay4 (F := Ideal) v0 v4 v9 (ix2 p c)
      = normMul N1 eps (fun c' : Fin 1024 => k0_pay2 (F := Ideal) v0 v4 v9 (ix2 p (⟨c'.val, by omega⟩ : Fin 1536))) c := by
  unfold k0_pay4
  generalize k0_pay2 (F := Ideal) v0 v4 v9 = v12
  refine (kernelNorm_apply (extractStridedSlice S512x1024 ![0, 0] v12 slices_S512x1536_o0_0_S512x1024)
    reduces_S512x1024_S512 (.inl rfl) rfl shapeCasts_S512_S512x1 broadcasts_S512x1_S512x1024
    (Scalar.ofBits .f32 0x44800000#32) (Scalar.ofBits .f32 0x3727C5AC#32) p c).trans ?_
  exact congrArg (fun y => normMul N1 eps y c) (funext fun c' => colSlice0_apply _ _ (by decide) p c')

/-- The first 1024 columns of the state-side rows. -/
theorem pay5_apply (v1 : Vec Ideal S512x512 .f32) (v6 : Vec Ideal S1536x512 .bf16) (v14 : Vec Ideal S1x1536 .f32)
    (p : Fin 512) (c : Fin 1024) :
    k0_pay5 (F := Ideal) v1 v6 v14 (ix2 p c) = k0_pay3 (F := Ideal) v1 v6 v14 (ix2 p (⟨c.val, by omega⟩ : Fin 1536)) := by
  unfold k0_pay5
  generalize k0_pay3 (F := Ideal) v1 v6 v14 = v17
  exact colSlice0_apply _ _ (by decide) p c

/-- The gates before they are split: the logistic function of the sum of the two normalised rows. -/
theorem pay7_apply (v36 v37 : FVec Ideal S512x1024 .f32) (p : Fin 512) (c : Fin 1024) :
    k0_pay7 (F := Ideal) v36 v37 (multiReduction .add [1] S512 v37 0x00000000#32 reduces_S512x1024_S512 (.inl rfl) rfl) (ix2 p c)
      = Ideal.logistic (v36 (ix2 p c) + normMul N1 eps (fun c' : Fin 1024 => v37 (ix2 p c')) c) := by
  unfold k0_pay7
  show Ideal.logistic (v36 (ix2 p c) + _) = _
  refine congrArg (fun y => Ideal.logistic (v36 (ix2 p c) + y)) ?_
  exact kernelNorm_apply v37 reduces_S512x1024_S512 (.inl rfl) rfl shapeCasts_S512_S512x1 broadcasts_S512x1_S512x1024 _ _ p c

/-- The update gate: the gates' first 512 columns. -/
theorem pay8_apply (v36 v37 : FVec Ideal S512x1024 .f32) (v38 : FVec Ideal S512 .f32) (p q : Fin 512) :
    k0_pay8 (F := Ideal) v36 v37 v38 (ix2 p q) = k0_pay7 (F := Ideal) v36 v37 v38 (ix2 p (⟨q.val, by omega⟩ : Fin 1024)) := by
  unfold k0_pay8
  exact colSlice0_apply _ _ (by decide) p q

/-- The reset gate: the gates' last 512 columns. -/
theorem pay9_apply (v36 v37 : FVec Ideal S512x1024 .f32) (v38 : FVec Ideal S512 .f32) (p q : Fin 512) :
    k0_pay9 (F := Ideal) v36 v37 v38 (ix2 p q) = k0_pay7 (F := Ideal) v36 v37 v38 (ix2 p (⟨q.val + 512, by omega⟩ : Fin 1024)) := by
  unfold k0_pay9
  exact colSliceOff_apply 512 _ _ (by decide) p q

/-- The normalised last 512 columns of the input-side rows. -/
theorem pay10_apply (v12 : FVec Ideal S512x1536 .f32) (p q : Fin 512) :
    k0_pay10 (F := Ideal) v12 (ix2 p q) = normMul N2 eps (fun c' : Fin 512 => v12 (ix2 p (⟨c'.val + 1024, by omega⟩ : Fin 1536))) q := by
  unfold k0_pay10
  refine (kernelNorm_apply (extractStridedSlice S512x512 ![0, 1024] v12 slices_S512x1536_o0_1024_S512x512)
    reduces_S512x512_S512 (.inl rfl) rfl shapeCasts_S512_S512x1 broadcasts_S512x1_S512x512
    (Scalar.ofBits .f32 0x44000000#32) (Scalar.ofBits .f32 0x3727C5AC#32) p q).trans ?_
  exact congrArg (fun y => normMul N2 eps y q) (funext fun c' => colSliceOff_apply 1024 _ _ (by decide) p c')

/-- The last 512 columns of the state-side rows. -/
theorem pay11_apply (v17 : FVec Ideal S512x1536 .f32) (p q : Fin 512) :
    k0_pay11 (F := Ideal) v17 (ix2 p q) = v17 (ix2 p (⟨q.val + 1024, by omega⟩ : Fin 1536)) := by
  unfold k0_pay11
  exact colSliceOff_apply 1024 _ _ (by decide) p q

/-- The stored value: the convex combination of the state and the candidate, the candidate's second summand the
    reset gate times the normalised last 512 columns of the state-side rows. -/
theorem pay1_apply (v1 : Vec Ideal S512x512 .f32) (v58 v59 v78 : FVec Ideal S512x512 .f32) (v17 : FVec Ideal S512x1536 .f32)
    (p q : Fin 512) :
    k0_pay1 (F := Ideal) v1 v58 v59 v78 (k0_pay11 (F := Ideal) v17) (k0_pay12 (F := Ideal) v17) (k0_pay13 (F := Ideal) v17) (ix2 p q)
      = (one - v58 (ix2 p q)) * v1 (ix2 p q)
        + v58 (ix2 p q) * Ideal.tanh (v78 (ix2 p q) + v59 (ix2 p q) * normMul N2 eps (fun c' : Fin 512 => k0_pay11 (F := Ideal) v17 (ix2 p c')) q) := by
  unfold k0_pay1 k0_pay13 k0_pay12
  show (one - v58 (ix2 p q)) * v1 (ix2 p q) + v58 (ix2 p q) * Ideal.tanh (v78 (ix2 p q) + v59 (ix2 p q) * _) = _
  refine congrArg (fun y => (one - v58 (ix2 p q)) * v1 (ix2 p q) + v58 (ix2 p q) * Ideal.tanh (v78 (ix2 p q) + v59 (ix2 p q) * y)) ?_
  exact kernelNorm_apply (k0_pay11 (F := Ideal) v17) reduces_S512x512_S512 (.inl rfl) rfl shapeCasts_S512_S512x1 broadcasts_S512x1_S512x512 _ _ p q

end Cert.KernelIdeal.CellValue

end
-- ==== Proof.KernelEntry.lean ====
/-
  The kernel's stored value at entry `(p, q)` of the output block is the cell's entry at column `q`, of the affine rows
  of input row `p` and state row `p` against the stacked weights: the first 1024 columns of the two width-1536 affine rows
  feed the gates, the last 512 the candidate.
-/
import proofs.«175681_j4776003633435_2_alg».proof.Proof.KernelCell

noncomputable section

namespace Cert.KernelIdeal.CellValue

open Cert.KernelIdeal Cert.KernelIdeal.Gen Idealize.ShloMosaic Idealize.ShloMosaic.ValueIdx Cert.GruRow

/-- The width-1536 affine row of row `p` of a block `X` against stacked weights `W` and a bias row `b`. -/
def fusedRow (X : Vec Ideal S512x512 .f32) (W : Vec Ideal S1536x512 .bf16) (b : Vec Ideal S1x1536 .f32) (p : Fin 512) :
    Fin 1536 → EReal :=
  affine (fun k : Fin 512 => X (ix2 p k)) (fun (c' : Fin 1536) (k : Fin 512) => W (ix2 c' k)) (fun c' : Fin 1536 => b (ix2 (0 : Fin 1) c'))

theorem entry_apply (P0 : Vec Ideal S512x512 .f32) (P1 : Vec Ideal S1536x512 .bf16) (P2 : Vec Ideal S1x1536 .f32)
    (P3 : Vec Ideal S512x512 .f32) (P4 : Vec Ideal S1536x512 .bf16) (P5 : Vec Ideal S1x1536 .f32) (p q : Fin 512) :
    k0_pay1 (F := Ideal) P3 (k0_pay8 (k0_pay4 P0 P1 P2) (k0_pay5 P3 P4 P5) (k0_pay6 P3 P4 P5))
        (k0_pay9 (k0_pay4 P0 P1 P2) (k0_pay5 P3 P4 P5) (k0_pay6 P3 P4 P5)) (k0_pay10 (k0_pay2 P0 P1 P2))
        (k0_pay11 (k0_pay3 P3 P4 P5)) (k0_pay12 (k0_pay3 P3 P4 P5)) (k0_pay13 (k0_pay3 P3 P4 P5)) (ix2 p q)
      = cellOf (normMul N1 eps) (normMul N2 eps)
          (fun c : Fin 1024 => fusedRow P0 P1 P2 p ⟨c.val, by omega⟩) (fun c : Fin 1024 => fusedRow P3 P4 P5 p ⟨c.val, by omega⟩)
          (fun c : Fin 512 => fusedRow P0 P1 P2 p ⟨c.val + 1024, by omega⟩) (fun c : Fin 512 => fusedRow P3 P4 P5 p ⟨c.val + 1024, by omega⟩)
          (fun k : Fin 512 => P3 (ix2 p k)) q := by
  have gate : ∀ c : Fin 1024, k0_pay7 (F := Ideal) (k0_pay4 P0 P1 P2) (k0_pay5 P3 P4 P5) (k0_pay6 P3 P4 P5) (ix2 p c)
      = Ideal.logistic (normMul N1 eps (fun c : Fin 1024 => fusedRow P0 P1 P2 p ⟨c.val, by omega⟩) c
          + normMul N1 eps (fun c : Fin 1024 => fusedRow P3 P4 P5 p ⟨c.val, by omega⟩) c) := by
    intro c
    refine (pay7_apply (k0_pay4 P0 P1 P2) (k0_pay5 P3 P4 P5) p c).trans ?_
    rw [pay4_apply]
    simp only [pay2_apply, pay5_apply, pay3_apply]
    rfl
  rw [pay1_apply, pay8_apply, pay9_apply, gate, gate, pay10_apply]
  simp only [pay11_apply, pay2_apply, pay3_apply]
  rfl

end Cert.KernelIdeal.CellValue

end
-- ==== Proof.LibStack.lean ====
/-
  Two matrices stacked one above the other, and two vectors laid end to end, read at an index.

  Concatenating an `[a, n]` matrix `A` and a `[b, n]` matrix `B` along the rows gives, at row `i < a`, row `i` of `A` and,
  at row `a + i`, row `i` of `B`. Concatenating an `[a]` vector and a `[b]` vector gives the first at `i < a` and the
  second at `a + i`; the same holds after the result is cast to a single row `[1, a + b]`.
-/
import Idealize.ShloMosaic.Lib.Pipeline.Value
import Idealize.ShloMosaic.Lib.ValueIdx

namespace Cert.Lib.Stack

open Idealize.ShloMosaic Idealize.ShloMosaic.ValueIdx

variable {α : Type} {a b n tot : Nat}

/-- A row of the upper matrix. -/
theorem stackRows_top (A : (⟨2, ![a, n]⟩ : Shape).Idx → α) (B : (⟨2, ![b, n]⟩ : Shape).Idx → α)
    (h : Shape.Concatenates [⟨2, ![a, n]⟩, ⟨2, ![b, n]⟩] ⟨2, ![tot, n]⟩ 0) (i : Fin a) (k : Fin n) (hi : i.val < tot) :
    concatenate ⟨2, ![tot, n]⟩ 0 [⟨⟨2, ![a, n]⟩, A⟩, ⟨⟨2, ![b, n]⟩, B⟩] h (ix2 ⟨i.val, hi⟩ k) = A (ix2 i k) :=
  concatenate_pair_apply_left 0 A B h (ix2 ⟨i.val, hi⟩ k) rfl (ix2 i k) (fun d => match d with
    | ⟨0, _⟩ => rfl
    | ⟨1, _⟩ => rfl)

/-- A row of the lower matrix. -/
theorem stackRows_bottom (A : (⟨2, ![a, n]⟩ : Shape).Idx → α) (B : (⟨2, ![b, n]⟩ : Shape).Idx → α)
    (h : Shape.Concatenates [⟨2, ![a, n]⟩, ⟨2, ![b, n]⟩] ⟨2, ![tot, n]⟩ 0) (i : Fin b) (k : Fin n) (hi : i.val + a < tot) :
    concatenate ⟨2, ![tot, n]⟩ 0 [⟨⟨2, ![a, n]⟩, A⟩, ⟨⟨2, ![b, n]⟩, B⟩] h (ix2 ⟨i.val + a, hi⟩ k) = B (ix2 i k) :=
  concatenate_pair_apply_right 0 A B h (ix2 ⟨i.val + a, hi⟩ k) rfl rfl (ix2 i k)
    (fun d hd => match d with
      | ⟨0, _⟩ => absurd rfl hd
      | ⟨1, _⟩ => rfl)
    rfl

/-- An entry of the first vector. -/
theorem join_left (A : (⟨1, ![a]⟩ : Shape).Idx → α) (B : (⟨1, ![b]⟩ : Shape).Idx → α)
    (h : Shape.Concatenates [⟨1, ![a]⟩, ⟨1, ![b]⟩] ⟨1, ![tot]⟩ 0) (i : Fin a) (hi : i.val < tot) :
    concatenate ⟨1, ![tot]⟩ 0 [⟨⟨1, ![a]⟩, A⟩, ⟨⟨1, ![b]⟩, B⟩] h (ix1 ⟨i.val, hi⟩) = A (ix1 i) :=
  concatenate_pair_apply_left 0 A B h (ix1 ⟨i.val, hi⟩) rfl (ix1 i) (fun d => match d with
    | ⟨0, _⟩ => rfl)

/-- An entry of the second vector. -/
theorem join_right (A : (⟨1, ![a]⟩ : Shape).Idx → α) (B : (⟨1, ![b]⟩ : Shape).Idx → α)
    (h : Shape.Concatenates [⟨1, ![a]⟩, ⟨1, ![b]⟩] ⟨1, ![tot]⟩ 0) (i : Fin b) (hi : i.val + a < tot) :
    concatenate ⟨1, ![tot]⟩ 0 [⟨⟨1, ![a]⟩, A⟩, ⟨⟨1, ![b]⟩, B⟩] h (ix1 ⟨i.val + a, hi⟩) = B (ix1 i) :=
  concatenate_pair_apply_right 0 A B h (ix1 ⟨i.val + a, hi⟩) rfl rfl (ix1 i)
    (fun d hd => match d with
      | ⟨0, _⟩ => absurd rfl hd)
    rfl

/-- A vector cast to a single row, at `(u, i)`: the vector at `i`. -/
theorem rowCast_apply (x : (⟨1, ![n]⟩ : Shape).Idx → α) (h : (⟨1, ![n]⟩ : Shape).ShapeCasts ⟨2, ![1, n]⟩)
    (u : Fin 1) (i : Fin n) : shapeCast ⟨2, ![1, n]⟩ x h (ix2 u i) = x (ix1 i) :=
  shapeCast_apply x h _ _ (by
    have hu : u.val = 0 := by omega
    rw [Shape.rowMajor_val_two, Shape.rowMajor_val_one]
    show i.val = u.val * n + i.val
    rw [hu]; omega)

end Cert.Lib.Stack
-- ==== Proof.KernelOperands.lean ====
/-
  The kernel's operand blocks as entries of the argument arrays.

  At grid point `t` the input and state windows hold rows `512 t … 512 t + 511` of their arrays; the four resident windows
  hold their whole arrays, which the program's host operations built before the launch: each weight window the two weight
  matrices stacked (rows 0–1023 the gate weights, rows 1024–1535 the candidate weights), each bias window the two bias
  vectors laid end to end as one row.
-/
import proofs.«175681_j4776003633435_2_alg».proof.Proof.Gen.KernelIdeal.Frame
import Idealize.ShloMosaic.Lib.Pipeline.Value
import Idealize.ShloMosaic.Lib.ValueIdx
import Idealize.ShloMosaic.Lib.StableHlo.Run
import proofs.«175681_j4776003633435_2_alg».proof.Proof.LibStack

noncomputable section

namespace Cert.KernelIdeal.Operands

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The block index of every window at every grid point: the row windows move with the point, the resident ones stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The stacked input-side weights. -/
abbrev Wx (c : Dev nD) : S1536x512.Idx → EReal :=
  concatenate S1536x512 0 [⟨S1024x512, m ((c : Thread nD τ).loc main_arg2)⟩, ⟨S512x512, m ((c : Thread nD τ).loc main_arg6)⟩]
    concatenates_S1024x512_S512x512_S1536x512_d0
/-- The stacked state-side weights. -/
abbrev Wh (c : Dev nD) : S1536x512.Idx → EReal :=
  concatenate S1536x512 0 [⟨S1024x512, m ((c : Thread nD τ).loc main_arg4)⟩, ⟨S512x512, m ((c : Thread nD τ).loc main_arg8)⟩]
    concatenates_S1024x512_S512x512_S1536x512_d0
/-- The joined input-side biases. -/
abbrev Bx (c : Dev nD) : S1536.Idx → EReal :=
  concatenate S1536 0 [⟨S1024, m ((c : Thread nD τ).loc main_arg3)⟩, ⟨S512, m ((c : Thread nD τ).loc main_arg7)⟩] concatenates_S1024_S512_S1536_d0
/-- The joined state-side biases. -/
abbrev Bh (c : Dev nD) : S1536.Idx → EReal :=
  concatenate S1536 0 [⟨S1024, m ((c : Thread nD τ).loc main_arg5)⟩, ⟨S512, m ((c : Thread nD τ).loc main_arg9)⟩] concatenates_S1024_S512_S1536_d0

/-- The region finds the input-side weight array holding the stacked input-side weights (the change of format is the
    identity on the extended reals). -/
theorem V_v1 (c : Dev nD) : (V m c main_v1 : S1536x512.Idx → EReal) = Wx m c := by
  dsimp only [Gen.V, Gen.hostOps0]; after_results; rfl
theorem V_v3 (c : Dev nD) : (V m c main_v3 : S1536x512.Idx → EReal) = Wh m c := by
  dsimp only [Gen.V, Gen.hostOps0]; after_results; rfl
/-- The region finds the input-side bias array holding the joined input-side biases as one row. -/
theorem V_v5 (c : Dev nD) : (V m c main_v5 : S1x1536.Idx → EReal) = shapeCast S1x1536 (Bx m c) shapeCasts_S1536_S1x1536 := by
  dsimp only [Gen.V, Gen.hostOps0]; after_results; rfl
theorem V_v7 (c : Dev nD) : (V m c main_v7 : S1x1536.Idx → EReal) = shapeCast S1x1536 (Bh m c) shapeCasts_S1536_S1x1536 := by
  dsimp only [Gen.V, Gen.hostOps0]; after_results; rfl

/-- Entry `(p, k)` of the input window's block at point `t` is entry `(512 t + p, k)` of the input array. -/
theorem xblk_apply (c : Dev nD) (t : Fin cfg0.N) (p k : Fin 512) (r : Fin 16384) (hr : r.val = t.val * 512 + p.val) :
    (iblk m c 0 t : Vec Ideal S512x512 .f32) (ix2 p k) = (m ((c : Thread nD τ).loc main_arg0) : S16384x512.Idx → EReal) (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 512 + 1 * k.val = k.val; rw [e1]; omega

/-- Entry `(p, k)` of the state window's block at point `t` is entry `(512 t + p, k)` of the state array. -/
theorem hblk_apply (c : Dev nD) (t : Fin cfg0.N) (p k : Fin 512) (r : Fin 16384) (hr : r.val = t.val * 512 + p.val) :
    (iblk m c 1 t : Vec Ideal S512x512 .f32) (ix2 p k) = (m ((c : Thread nD τ).loc main_arg1) : S16384x512.Idx → EReal) (ix2 r k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = r.val; rw [e0, hr]; omega
  | ⟨1, _⟩ => show win0_1.index t (1 : Fin 2) * 512 + 1 * k.val = k.val; rw [e1]; omega

/-- The input-side weight window holds the stacked input-side weights: rows 0–1023 are the gate weights. -/
theorem wx_lo (c : Dev nD) (t : Fin cfg0.N) (c' : Fin 1024) (k : Fin 512) :
    (iblk m c 2 t : Vec Ideal S1536x512 .bf16) (ix2 (⟨c'.val, by omega⟩ : Fin 1536) k)
      = (m ((c : Thread nD τ).loc main_arg2) : S1024x512.Idx → EReal) (ix2 c' k) := by
  obtain ⟨-, -, -, -, e0, e1, -⟩ := idx_facts t
  unfold iblk
  rw [View.read_apply]
  show V m c main_v1 _ = _
  rw [V_v1]
  refine (congrArg (Wx m c) (funext fun a => Fin.ext ?_)).trans
    (Cert.Lib.Stack.stackRows_top _ _ concatenates_S1024x512_S512x512_S1536x512_d0 c' k (by omega))
  match a with
  | ⟨0, _⟩ => show win0_2.index t (0 : Fin 2) * 1536 + 1 * c'.val = c'.val; rw [e0]; omega
  | ⟨1, _⟩ => show win0_2.index t (1 : Fin 2) * 512 + 1 * k.val = k.val; rw [e1]; omega

/-- The input-side weight window holds the stacked input-side weights: rows 1024–1535 are the candidate weights. -/
theorem wx_hi (c : Dev nD) (t : Fin cfg0.N) (c' : Fin 512) (k : Fin 512) :
    (iblk m c 2 t : Vec Ideal S1536x512 .bf16) (ix2 (⟨c'.val + 1024, by omega⟩ : Fin 1536) k)
      = (m ((c : Thread nD τ).loc main_arg6) : S512x512.Idx → EReal) (ix2 c' k) := by
  obtain ⟨-, -, -, -, e0, e1, -⟩ := idx_facts t
  unfold iblk
  rw [View.read_apply]
  show V m c main_v1 _ = _
  rw [V_v1]
  refine (congrArg (Wx m c) (funext fun a => Fin.ext ?_)).trans
    (Cert.Lib.Stack.stackRows_bottom _ _ concatenates_S1024x512_S512x512_S1536x512_d0 c' k (by omega))
  match a with
  | ⟨0, _⟩ => show win0_2.index t (0 : Fin 2) * 1536 + 1 * (c'.val + 1024) = c'.val + 1024; rw [e0]; omega
  | ⟨1, _⟩ => show win0_2.index t (1 : Fin 2) * 512 + 1 * k.val = k.val; rw [e1]; omega

/-- The state-side weight window holds the stacked state-side weights: rows 0–1023 are the gate weights. -/
theorem wh_lo (c : Dev nD) (t : Fin cfg0.N) (c' : Fin 1024) (k : Fin 512) :
    (iblk m c 4 t : Vec Ideal S1536x512 .bf16) (ix2 (⟨c'.val, by omega⟩ : Fin 1536) k)
      = (m ((c : Thread nD τ).loc main_arg4) : S1024x512.Idx → EReal) (ix2 c' k) := by
  obtain ⟨-, -, -, -, -, -, -, -, e0, e1, -⟩ := idx_facts t
  unfold iblk
  rw [View.read_apply]
  show V m c main_v3 _ = _
  rw [V_v3]
  refine (congrArg (Wh m c) (funext fun a => Fin.ext ?_)).trans
    (Cert.Lib.Stack.stackRows_top _ _ concatenates_S1024x512_S512x512_S1536x512_d0 c' k (by omega))
  match a with
  | ⟨0, _⟩ => show win0_4.index t (0 : Fin 2) * 1536 + 1 * c'.val = c'.val; rw [e0]; omega
  | ⟨1, _⟩ => show win0_4.index t (1 : Fin 2) * 512 + 1 * k.val = k.val; rw [e1]; omega

/-- The state-side weight window holds the stacked state-side weights: rows 1024–1535 are the candidate weights. -/
theorem wh_hi (c : Dev nD) (t : Fin cfg0.N) (c' : Fin 512) (k : Fin 512) :
    (iblk m c 4 t : Vec Ideal S1536x512 .bf16) (ix2 (⟨c'.val + 1024, by omega⟩ : Fin 1536) k)
      = (m ((c : Thread nD τ).loc main_arg8) : S512x512.Idx → EReal) (ix2 c' k) := by
  obtain ⟨-, -, -, -, -, -, -, -, e0, e1, -⟩ := idx_facts t
  unfold iblk
  rw [View.read_apply]
  show V m c main_v3 _ = _
  rw [V_v3]
  refine (congrArg (Wh m c) (funext fun a => Fin.ext ?_)).trans
    (Cert.Lib.Stack.stackRows_bottom _ _ concatenates_S1024x512_S512x512_S1536x512_d0 c' k (by omega))
  match a with
  | ⟨0, _⟩ => show win0_4.index t (0 : Fin 2) * 1536 + 1 * (c'.val + 1024) = c'.val + 1024; rw [e0]; omega
  | ⟨1, _⟩ => show win0_4.index t (1 : Fin 2) * 512 + 1 * k.val = k.val; rw [e1]; omega

/-- The input-side bias window holds the two input-side biases end to end: columns 0–1023 are the gate biases. -/
theorem bx_lo (c : Dev nD) (t : Fin cfg0.N) (c' : Fin 1024) :
    (iblk m c 3 t : Vec Ideal S1x1536 .f32) (ix2 (0 : Fin 1) (⟨c'.val, by omega⟩ : Fin 1536))
      = (m ((c : Thread nD τ).loc main_arg3) : S1024.Idx → EReal) (ix1 c') := by
  obtain ⟨-, -, -, -, -, -, e0, e1, -⟩ := idx_facts t
  unfold iblk
  rw [View.read_apply]
  show V m c main_v5 _ = _
  rw [V_v5]
  refine (congrArg (shapeCast S1x1536 (Bx m c) shapeCasts_S1536_S1x1536) (funext fun a => Fin.ext ?_)).trans
    ((Cert.Lib.Stack.rowCast_apply _ shapeCasts_S1536_S1x1536 (0 : Fin 1) (⟨c'.val, by omega⟩ : Fin 1536)).trans
      (Cert.Lib.Stack.join_left _ _ concatenates_S1024_S512_S1536_d0 c' (by omega)))
  match a with
  | ⟨0, _⟩ => show win0_3.index t (0 : Fin 2) * 1 + 1 * 0 = 0; rw [e0]
  | ⟨1, _⟩ => show win0_3.index t (1 : Fin 2) * 1536 + 1 * c'.val = c'.val; rw [e1]; omega

/-- The input-side bias window holds the two input-side biases end to end: columns 1024–1535 are the candidate biases. -/
theorem bx_hi (c : Dev nD) (t : Fin cfg0.N) (c' : Fin 512) :
    (iblk m c 3 t : Vec Ideal S1x1536 .f32) (ix2 (0 : Fin 1) (⟨c'.val + 1024, by omega⟩ : Fin 1536))
      = (m ((c : Thread nD τ).loc main_arg7) : S512.Idx → EReal) (ix1 c') := by
  obtain ⟨-, -, -, -, -, -, e0, e1, -⟩ := idx_facts t
  unfold iblk
  rw [View.read_apply]
  show V m c main_v5 _ = _
  rw [V_v5]
  refine (congrArg (shapeCast S1x1536 (Bx m c) shapeCasts_S1536_S1x1536) (funext fun a => Fin.ext ?_)).trans
    ((Cert.Lib.Stack.rowCast_apply _ shapeCasts_S1536_S1x1536 (0 : Fin 1) (⟨c'.val + 1024, by omega⟩ : Fin 1536)).trans
      (Cert.Lib.Stack.join_right _ _ concatenates_S1024_S512_S1536_d0 c' (by omega)))
  match a with
  | ⟨0, _⟩ => show win0_3.index t (0 : Fin 2) * 1 + 1 * 0 = 0; rw [e0]
  | ⟨1, _⟩ => show win0_3.index t (1 : Fin 2) * 1536 + 1 * (c'.val + 1024) = c'.val + 1024; rw [e1]; omega

/-- The state-side bias window holds the two state-side biases end to end: columns 0–1023 are the gate biases. -/
theorem bh_lo (c : Dev nD) (t : Fin cfg0.N) (c' : Fin 1024) :
    (iblk m c 5 t : Vec Ideal S1x1536 .f32) (ix2 (0 : Fin 1) (⟨c'.val, by omega⟩ : Fin 1536))
      = (m ((c : Thread nD τ).loc main_arg5) : S1024.Idx → EReal) (ix1 c') := by
  obtain ⟨-, -, -, -, -, -, -, -, -, -, e0, e1, -⟩ := idx_facts t
  unfold iblk
  rw [View.read_apply]
  show V m c main_v7 _ = _
  rw [V_v7]
  refine (congrArg (shapeCast S1x1536 (Bh m c) shapeCasts_S1536_S1x1536) (funext fun a => Fin.ext ?_)).trans
    ((Cert.Lib.Stack.rowCast_apply _ shapeCasts_S1536_S1x1536 (0 : Fin 1) (⟨c'.val, by omega⟩ : Fin 1536)).trans
      (Cert.Lib.Stack.join_left _ _ concatenates_S1024_S512_S1536_d0 c' (by omega)))
  match a with
  | ⟨0, _⟩ => show win0_5.index t (0 : Fin 2) * 1 + 1 * 0 = 0; rw [e0]
  | ⟨1, _⟩ => show win0_5.index t (1 : Fin 2) * 1536 + 1 * c'.val = c'.val; rw [e1]; omega

/-- The state-side bias window holds the two state-side biases end to end: columns 1024–1535 are the candidate biases. -/
theorem bh_hi (c : Dev nD) (t : Fin cfg0.N) (c' : Fin 512) :
    (iblk m c 5 t : Vec Ideal S1x1536 .f32) (ix2 (0 : Fin 1) (⟨c'.val + 1024, by omega⟩ : Fin 1536))
      = (m ((c : Thread nD τ).loc main_arg9) : S512.Idx → EReal) (ix1 c') := by
  obtain ⟨-, -, -, -, -, -, -, -, -, -, e0, e1, -⟩ := idx_facts t
  unfold iblk
  rw [View.read_apply]
  show V m c main_v7 _ = _
  rw [V_v7]
  refine (congrArg (shapeCast S1x1536 (Bh m c) shapeCasts_S1536_S1x1536) (funext fun a => Fin.ext ?_)).trans
    ((Cert.Lib.Stack.rowCast_apply _ shapeCasts_S1536_S1x1536 (0 : Fin 1) (⟨c'.val + 1024, by omega⟩ : Fin 1536)).trans
      (Cert.Lib.Stack.join_right _ _ concatenates_S1024_S512_S1536_d0 c' (by omega)))
  match a with
  | ⟨0, _⟩ => show win0_5.index t (0 : Fin 2) * 1 + 1 * 0 = 0; rw [e0]
  | ⟨1, _⟩ => show win0_5.index t (1 : Fin 2) * 1536 + 1 * (c'.val + 1024) = c'.val + 1024; rw [e1]; omega

end Cert.KernelIdeal.Operands

end
-- ==== Proof.ArraySpec.lean ====
/-
  The whole result: the new state array `[16384, 512]` as one function of the ten argument arrays.

  Entry `(r, q)` is the cell's entry at column `q` of input row `r` and state row `r`: the gate rows are
  `x_r · W_i2hᵀ + b_i2h` and `h_r · W_h2hᵀ + b_h2h` (width 1024), the candidate rows `x_r · W_hatWᵀ + b_hatW` and
  `h_r · W_hatUᵀ + b_hatU` (width 512), each normalised by the quotient with the square root.
-/
import proofs.«175681_j4776003633435_2_alg».proof.Proof.Cell
import Idealize.ShloMosaic.Lib.ValueIdx

noncomputable section

namespace Cert.GruRow

open Idealize.ShloMosaic Idealize.ShloMosaic.ValueIdx

/-- The cell's entry at column `q` from an input row, a state row and the eight parameter arrays, all as plain functions. -/
def cellAt (x h : Fin 512 → EReal) (Wi : Fin 1024 → Fin 512 → EReal) (bi : Fin 1024 → EReal)
    (Wh : Fin 1024 → Fin 512 → EReal) (bh : Fin 1024 → EReal) (Wa : Fin 512 → Fin 512 → EReal) (ba : Fin 512 → EReal)
    (Wu : Fin 512 → Fin 512 → EReal) (bu : Fin 512 → EReal) (q : Fin 512) : EReal :=
  cellOf (normDiv N1 eps) (normDiv N2 eps) (affine x Wi bi) (affine h Wh bh) (affine x Wa ba) (affine h Wu bu) h q

/-- The new state array, entry by entry. -/
def cellArray (X H : (⟨2, ![16384, 512]⟩ : Shape).Idx → EReal) (Wi : (⟨2, ![1024, 512]⟩ : Shape).Idx → EReal)
    (bi : (⟨1, ![1024]⟩ : Shape).Idx → EReal) (Wh : (⟨2, ![1024, 512]⟩ : Shape).Idx → EReal) (bh : (⟨1, ![1024]⟩ : Shape).Idx → EReal)
    (Wa : (⟨2, ![512, 512]⟩ : Shape).Idx → EReal) (ba : (⟨1, ![512]⟩ : Shape).Idx → EReal)
    (Wu : (⟨2, ![512, 512]⟩ : Shape).Idx → EReal) (bu : (⟨1, ![512]⟩ : Shape).Idx → EReal) :
    (⟨2, ![16384, 512]⟩ : Shape).Idx → EReal := fun i =>
  cellAt (fun k : Fin 512 => X (ix2 (i 0) k)) (fun k : Fin 512 => H (ix2 (i 0) k))
    (fun (c : Fin 1024) (k : Fin 512) => Wi (ix2 c k)) (fun c : Fin 1024 => bi (ix1 c))
    (fun (c : Fin 1024) (k : Fin 512) => Wh (ix2 c k)) (fun c : Fin 1024 => bh (ix1 c))
    (fun (c : Fin 512) (k : Fin 512) => Wa (ix2 c k)) (fun c : Fin 512 => ba (ix1 c))
    (fun (c : Fin 512) (k : Fin 512) => Wu (ix2 c k)) (fun c : Fin 512 => bu (ix1 c)) (i 1)

/-- At an index given by its coordinates. -/
theorem cellArray_ix2 (X H : (⟨2, ![16384, 512]⟩ : Shape).Idx → EReal) (Wi : (⟨2, ![1024, 512]⟩ : Shape).Idx → EReal)
    (bi : (⟨1, ![1024]⟩ : Shape).Idx → EReal) (Wh : (⟨2, ![1024, 512]⟩ : Shape).Idx → EReal) (bh : (⟨1, ![1024]⟩ : Shape).Idx → EReal)
    (Wa : (⟨2, ![512, 512]⟩ : Shape).Idx → EReal) (ba : (⟨1, ![512]⟩ : Shape).Idx → EReal)
    (Wu : (⟨2, ![512, 512]⟩ : Shape).Idx → EReal) (bu : (⟨1, ![512]⟩ : Shape).Idx → EReal) (r : Fin 16384) (q : Fin 512) :
    cellArray X H Wi bi Wh bh Wa ba Wu bu (ix2 r q)
      = cellAt (fun k : Fin 512 => X (ix2 r k)) (fun k : Fin 512 => H (ix2 r k))
          (fun (c : Fin 1024) (k : Fin 512) => Wi (ix2 c k)) (fun c : Fin 1024 => bi (ix1 c))
          (fun (c : Fin 1024) (k : Fin 512) => Wh (ix2 c k)) (fun c : Fin 1024 => bh (ix1 c))
          (fun (c : Fin 512) (k : Fin 512) => Wa (ix2 c k)) (fun c : Fin 512 => ba (ix1 c))
          (fun (c : Fin 512) (k : Fin 512) => Wu (ix2 c k)) (fun c : Fin 512 => bu (ix1 c)) q := rfl

/-- At any index, named by its two coordinates. -/
theorem cellArray_apply (X H : (⟨2, ![16384, 512]⟩ : Shape).Idx → EReal) (Wi : (⟨2, ![1024, 512]⟩ : Shape).Idx → EReal)
    (bi : (⟨1, ![1024]⟩ : Shape).Idx → EReal) (Wh : (⟨2, ![1024, 512]⟩ : Shape).Idx → EReal) (bh : (⟨1, ![1024]⟩ : Shape).Idx → EReal)
    (Wa : (⟨2, ![512, 512]⟩ : Shape).Idx → EReal) (ba : (⟨1, ![512]⟩ : Shape).Idx → EReal)
    (Wu : (⟨2, ![512, 512]⟩ : Shape).Idx → EReal) (bu : (⟨1, ![512]⟩ : Shape).Idx → EReal)
    (i : (⟨2, ![16384, 512]⟩ : Shape).Idx) (r : Fin 16384) (q : Fin 512) (hr : (i 0).val = r.val) (hq : (i 1).val = q.val) :
    cellArray X H Wi bi Wh bh Wa ba Wu bu i
      = cellAt (fun k : Fin 512 => X (ix2 r k)) (fun k : Fin 512 => H (ix2 r k))
          (fun (c : Fin 1024) (k : Fin 512) => Wi (ix2 c k)) (fun c : Fin 1024 => bi (ix1 c))
          (fun (c : Fin 1024) (k : Fin 512) => Wh (ix2 c k)) (fun c : Fin 1024 => bh (ix1 c))
          (fun (c : Fin 512) (k : Fin 512) => Wa (ix2 c k)) (fun c : Fin 512 => ba (ix1 c))
          (fun (c : Fin 512) (k : Fin 512) => Wu (ix2 c k)) (fun c : Fin 512 => bu (ix1 c)) q := by
  obtain rfl : i = ix2 r q := funext fun a => Fin.ext (by
    match a with
    | ⟨0, _⟩ => exact hr
    | ⟨1, _⟩ => exact hq)
  rfl

end Cert.GruRow

end
-- ==== Proof.KernelArray.lean ====
/-
  The kernel's result array as one function of the argument arrays.

  Grid point `t` writes back rows `512 t … 512 t + 511` of the result, and what it writes at `(p, q)` is the cell's entry
  for input row and state row `512 t + p` against the gate and candidate parameters: the stacked weights and joined
  biases the body reads are, in their first 1024 rows, the gate parameters and, in their last 512, the candidate's.
  The 32 blocks cover the array.
-/
import proofs.«175681_j4776003633435_2_alg».proof.Proof.KernelBlocks
import proofs.«175681_j4776003633435_2_alg».proof.Proof.KernelEntry
import proofs.«175681_j4776003633435_2_alg».proof.Proof.KernelOperands
import proofs.«175681_j4776003633435_2_alg».proof.Proof.ArraySpec

noncomputable section

namespace Cert.KernelIdeal.ArrayValue

open Cert.KernelIdeal Cert.KernelIdeal.Gen Cert.KernelIdeal.ValueP Cert.KernelIdeal.CellValue Cert.KernelIdeal.Operands
open Idealize.ShloMosaic Idealize.ShloMosaic.TcCoe Idealize.SL.Sem Idealize.ShloMosaic.ValueIdx Cert.GruRow
open Idealize.ShloMosaic.Pipeline (Dat)

/-- The first 1024 columns of a fused affine row are the affine row against the first 1024 rows of the stacked weights. -/
theorem fusedRow_lo (X : Vec Ideal S512x512 .f32) (W : Vec Ideal S1536x512 .bf16) (b : Vec Ideal S1x1536 .f32) (p : Fin 512)
    (x : Fin 512 → EReal) (Wl : Fin 1024 → Fin 512 → EReal) (bl : Fin 1024 → EReal)
    (hx : ∀ k : Fin 512, X (ix2 p k) = x k)
    (hW : ∀ (c : Fin 1024) (k : Fin 512), W (ix2 (⟨c.val, by omega⟩ : Fin 1536) k) = Wl c k)
    (hb : ∀ c : Fin 1024, b (ix2 (0 : Fin 1) (⟨c.val, by omega⟩ : Fin 1536)) = bl c) :
    (fun c : Fin 1024 => fusedRow X W b p ⟨c.val, by omega⟩) = affine x Wl bl := by
  funext c
  unfold fusedRow affine
  simp only [hx, hW, hb]

/-- The last 512 columns are the affine row against the last 512 rows. -/
theorem fusedRow_hi (X : Vec Ideal S512x512 .f32) (W : Vec Ideal S1536x512 .bf16) (b : Vec Ideal S1x1536 .f32) (p : Fin 512)
    (x : Fin 512 → EReal) (Wl : Fin 512 → Fin 512 → EReal) (bl : Fin 512 → EReal)
    (hx : ∀ k : Fin 512, X (ix2 p k) = x k)
    (hW : ∀ (c : Fin 512) (k : Fin 512), W (ix2 (⟨c.val + 1024, by omega⟩ : Fin 1536) k) = Wl c k)
    (hb : ∀ c : Fin 512, b (ix2 (0 : Fin 1) (⟨c.val + 1024, by omega⟩ : Fin 1536)) = bl c) :
    (fun c : Fin 512 => fusedRow X W b p ⟨c.val + 1024, by omega⟩) = affine x Wl bl := by
  funext c
  unfold fusedRow affine
  simp only [hx, hW, hb]

/-- The body's stored value at a block index `y` is the cell's entry, for any reading of its six operands as an input row,
    a state row and the eight parameter arrays. -/
theorem entry_eq_cellAt (P0 : Vec Ideal S512x512 .f32) (P1 : Vec Ideal S1536x512 .bf16) (P2 : Vec Ideal S1x1536 .f32)
    (P3 : Vec Ideal S512x512 .f32) (P4 : Vec Ideal S1536x512 .bf16) (P5 : Vec Ideal S1x1536 .f32) (y : S512x512.Idx)
    (x h : Fin 512 → EReal) (Wi : Fin 1024 → Fin 512 → EReal) (bi : Fin 1024 → EReal)
    (Wh : Fin 1024 → Fin 512 → EReal) (bh : Fin 1024 → EReal) (Wa : Fin 512 → Fin 512 → EReal) (ba : Fin 512 → EReal)
    (Wu : Fin 512 → Fin 512 → EReal) (bu : Fin 512 → EReal)
    (hx : ∀ k : Fin 512, P0 (ix2 (y 0) k) = x k) (hh : ∀ k : Fin 512, P3 (ix2 (y 0) k) = h k)
    (hWi : ∀ (c : Fin 1024) (k : Fin 512), P1 (ix2 (⟨c.val, by omega⟩ : Fin 1536) k) = Wi c k)
    (hbi : ∀ c : Fin 1024, P2 (ix2 (0 : Fin 1) (⟨c.val, by omega⟩ : Fin 1536)) = bi c)
    (hWh : ∀ (c : Fin 1024) (k : Fin 512), P4 (ix2 (⟨c.val, by omega⟩ : Fin 1536) k) = Wh c k)
    (hbh : ∀ c : Fin 1024, P5 (ix2 (0 : Fin 1) (⟨c.val, by omega⟩ : Fin 1536)) = bh c)
    (hWa : ∀ (c : Fin 512) (k : Fin 512), P1 (ix2 (⟨c.val + 1024, by omega⟩ : Fin 1536) k) = Wa c k)
    (hba : ∀ c : Fin 512, P2 (ix2 (0 : Fin 1) (⟨c.val + 1024, by omega⟩ : Fin 1536)) = ba c)
    (hWu : ∀ (c : Fin 512) (k : Fin 512), P4 (ix2 (⟨c.val + 1024, by omega⟩ : Fin 1536) k) = Wu c k)
    (hbu : ∀ c : Fin 512, P5 (ix2 (0 : Fin 1) (⟨c.val + 1024, by omega⟩ : Fin 1536)) = bu c) :
    k0_pay1 (F := Ideal) P3 (k0_pay8 (k0_pay4 P0 P1 P2) (k0_pay5 P3 P4 P5) (k0_pay6 P3 P4 P5))
        (k0_pay9 (k0_pay4 P0 P1 P2) (k0_pay5 P3 P4 P5) (k0_pay6 P3 P4 P5)) (k0_pay10 (k0_pay2 P0 P1 P2))
        (k0_pay11 (k0_pay3 P3 P4 P5)) (k0_pay12 (k0_pay3 P3 P4 P5)) (k0_pay13 (k0_pay3 P3 P4 P5)) y
      = cellAt x h Wi bi Wh bh Wa ba Wu bu (y 1) := by
  obtain ⟨p, q, rfl⟩ : ∃ (p q : Fin 512), y = ix2 p q := ⟨y 0, y 1, eq_ix2 y⟩
  rw [entry_apply, cellOf_mul_eq_div,
    fusedRow_lo P0 P1 P2 p x Wi bi hx hWi hbi, fusedRow_lo P3 P4 P5 p h Wh bh hh hWh hbh,
    fusedRow_hi P0 P1 P2 p x Wa ba hx hWa hba, fusedRow_hi P3 P4 P5 p h Wu bu hh hWu hbu,
    show (fun k : Fin 512 => P3 (ix2 p k)) = h from funext hh]
  rfl

variable (m : (ℓ : Loc nD τ sig) → Buf (Elt Ideal) ℓ) (ρ : Dev nD → PrngReg)

/-- The result array as the function of the ten argument arrays as launched. -/
abbrev result (c : Dev nD) : S16384x512.Idx → EReal :=
  cellArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem hz : (![0, 0] : Fin 2 → Nat) = fun _ => 0 := funext fun a => by fin_cases a <;> rfl

/-- What grid point `t` writes back is block `t` of the result array. -/
theorem flushed_eq (c : Dev nD) (t : Fin cfg0.N) :
    (dats m 0 c).flushed 6 t = ((cfg0.win 6).blk t).view.read (Elt Ideal) (result m c) := by
  have hN : cfg0.N = 32 := N_0
  have ht : t.val < 32 := by have := t.isLt; omega
  obtain ⟨-, -, -, -, -, -, -, -, -, -, -, -, e0, e1⟩ := idx_facts t
  rw [flushed6]
  unfold out0_6
  rw [View.canon_unit_zero hz]
  simp only [View.ld_unit_zero (S := S512x512) hz, View.ld_unit_zero (S := S1536x512) hz, View.ld_unit_zero (S := S1x1536) hz]
  funext y
  have hy0 : (y 0).val < 512 := (y 0).isLt
  show k0_pay1 (F := Ideal) _ _ _ _ _ _ _ y = result m c (((cfg0.win 6).blk t).view.emb y)
  have hr : ((((cfg0.win 6).blk t).view.emb y) 0).val = t.val * 512 + (y 0).val := by
    show win0_6.index t (0 : Fin 2) * 512 + 1 * (y 0).val = _
    rw [e0]; omega
  have hq : ((((cfg0.win 6).blk t).view.emb y) 1).val = (y 1).val := by
    show win0_6.index t (1 : Fin 2) * 512 + 1 * (y 1).val = _
    rw [e1]; omega
  refine Eq.trans ?_ (cellArray_apply _ _ _ _ _ _ _ _ _ _ _ (⟨t.val * 512 + (y 0).val, by omega⟩ : Fin 16384) (y 1) hr hq).symm
  exact entry_eq_cellAt (iblk m c 0 t) (iblk m c 2 t) (iblk m c 3 t) (iblk m c 1 t) (iblk m c 4 t) (iblk m c 5 t) y _ _ _ _ _ _ _ _ _ _
    (fun k => xblk_apply m c t (y 0) k _ rfl) (fun k => hblk_apply m c t (y 0) k _ rfl)
    (fun c' k => wx_lo m c t c' k) (fun c' => bx_lo m c t c') (fun c' k => wh_lo m c t c' k) (fun c' => bh_lo m c t c')
    (fun c' k => wx_hi m c t c' k) (fun c' => bx_hi m c t c') (fun c' k => wh_hi m c t c' k) (fun c' => bh_hi m c t c')

/-- An index of the result array is in point `t`'s block iff each coordinate is in the block's range on its axis. -/
theorem mem_blk (t : Fin cfg0.N) (i : S16384x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v8).slice (win0_6.rect t)).set ↔ _
  rw [View.set_slice_whole, Rect.mem_set_unit]
  exact Iff.rfl

/-- Row `r` of the result array lies in the block of point `r / 512`. -/
theorem cover (i : S16384x512.Idx) : ∃ t : Fin cfg0.N, (cfg0.win 6).flush t = true ∧ i ∈ ((cfg0.win 6).blk t).view.set := by
  have hN : cfg0.N = 32 := N_0
  have hi0 : (i 0).val < 16384 := (i 0).isLt
  have hi1 : (i 1).val < 512 := (i 1).isLt
  obtain ⟨t, ht⟩ : ∃ t : Fin cfg0.N, t.val = (i 0).val / 512 := ⟨⟨(i 0).val / 512, by omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 512 ≤ (i 1).val ∧ (i 1).val < win0_6.index t (1 : Fin 2) * 512 + 512
    rw [e1]; omega

/-- So the result array ends holding `result`. -/
theorem final (c : Dev nD) : (dats m 0 c).arrAt 6 cfg0.N = result m c :=
  (dats m 0 c).arrAt_eq_of_cover 6 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.ArrayValue

end
-- ==== Proof.RefAffine.lean ====
/-
  The reference's four affine maps at an entry: a product of the input (or state) array with a transposed weight matrix
  plus a bias vector repeated down the rows is, at `(r, c)`, the affine row of row `r` at column `c`.
-/
import proofs.«175681_j4776003633435_2_alg».proof.Proof.Gen.ReferenceIdeal.Read
import proofs.«175681_j4776003633435_2_alg».proof.Proof.RowLaw

noncomputable section

namespace Cert.ReferenceIdeal.RefValue

open Cert.ReferenceIdeal Cert.ReferenceIdeal.Gen Cert.ReferenceIdeal.Read Idealize.ShloMosaic Idealize.ShloMosaic.ValueIdx Cert.GruRow

/-- The gates' input-side rows: `x · W_i2hᵀ + b_i2h`. -/
theorem affine_v4 (x0 : (⟨S16384x512, .f32⟩ : BufTy).Contents (Elt Ideal)) (x2 : (⟨S1024x512, .f32⟩ : BufTy).Contents (Elt Ideal))
    (x3 : (⟨S1024, .f32⟩ : BufTy).Contents (Elt Ideal)) (r : Fin 16384) (c : Fin 1024) :
    val_main_v4 (F := Ideal) x0 x2 x3 (ix2 r c)
      = affine (fun k : Fin 512 => x0 (ix2 r k)) (fun (c' : Fin 1024) (k : Fin 512) => x2 (ix2 c' k)) (fun c' : Fin 1024 => x3 (ix1 c')) c := by
  have hl : ∀ k : Fin 512, lidx_main_v1 (ix2 r c) k = ix2 r k := fun k =>
    funext fun a => Fin.ext (by match a with | ⟨0, _⟩ => rfl | ⟨1, _⟩ => rfl)
  have hr : ∀ k : Fin 512, idx_main_v0 (ridx_main_v1 (ix2 r c) k) = ix2 c k := fun k =>
    funext fun a => Fin.ext (by match a with | ⟨0, _⟩ => rfl | ⟨1, _⟩ => rfl)
  have hb : idx_main_v2 (idx_main_v3 (ix2 r c)) = ix1 c :=
    funext fun a => Fin.ext (by match a with | ⟨0, _⟩ => rfl)
  rw [val_main_v4_apply, val_main_v1_apply, val_main_v3_apply, val_main_v2_apply]
  simp only [val_main_v0_apply, hl, hr, hb]
  rfl

/-- The gates' state-side rows: `h · W_h2hᵀ + b_h2h`. -/
theorem affine_v27 (x1 : (⟨S16384x512, .f32⟩ : BufTy).Contents (Elt Ideal)) (x4 : (⟨S1024x512, .f32⟩ : BufTy).Contents (Elt Ideal))
    (x5 : (⟨S1024, .f32⟩ : BufTy).Contents (Elt Ideal)) (r : Fin 16384) (c : Fin 1024) :
    val_main_v27 (F := Ideal) x1 x4 x5 (ix2 r c)
      = affine (fun k : Fin 512 => x1 (ix2 r k)) (fun (c' : Fin 1024) (k : Fin 512) => x4 (ix2 c' k)) (fun c' : Fin 1024 => x5 (ix1 c')) c := by
  have hl : ∀ k : Fin 512, lidx_main_v24 (ix2 r c) k = ix2 r k := fun k =>
    funext fun a => Fin.ext (by match a with | ⟨0, _⟩ => rfl | ⟨1, _⟩ => rfl)
  have hr : ∀ k : Fin 512, idx_main_v23 (ridx_main_v24 (ix2 r c) k) = ix2 c k := fun k =>
    funext fun a => Fin.ext (by match a with | ⟨0, _⟩ => rfl | ⟨1, _⟩ => rfl)
  have hb : idx_main_v25 (idx_main_v26 (ix2 r c)) = ix1 c :=
    funext fun a => Fin.ext (by match a with | ⟨0, _⟩ => rfl)
  rw [val_main_v27_apply, val_main_v24_apply, val_main_v26_apply, val_main_v25_apply]
  simp only [val_main_v23_apply, hl, hr, hb]
  rfl

/-- The candidate's input-side rows: `x · W_hatWᵀ + b_hatW`. -/
theorem affine_v59 (x0 : (⟨S16384x512, .f32⟩ : BufTy).Contents (Elt Ideal)) (x6 : (⟨S512x512, .f32⟩ : BufTy).Contents (Elt Ideal))
    (x7 : (⟨S512, .f32⟩ : BufTy).Contents (Elt Ideal)) (r : Fin 16384) (c : Fin 512) :
    val_main_v59 (F := Ideal) x0 x6 x7 (ix2 r c)
      = affine (fun k : Fin 512 => x0 (ix2 r k)) (fun (c' : Fin 512) (k : Fin 512) => x6 (ix2 c' k)) (fun c' : Fin 512 => x7 (ix1 c')) c := by
  have hl : ∀ k : Fin 512, lidx_main_v56 (ix2 r c) k = ix2 r k := fun k =>
    funext fun a => Fin.ext (by match a with | ⟨0, _⟩ => rfl | ⟨1, _⟩ => rfl)
  have hr : ∀ k : Fin 512, idx_main_v55 (ridx_main_v56 (ix2 r c) k) = ix2 c k := fun k =>
    funext fun a => Fin.ext (by match a with | ⟨0, _⟩ => rfl | ⟨1, _⟩ => rfl)
  have hb : idx_main_v57 (idx_main_v58 (ix2 r c)) = ix1 c :=
    funext fun a => Fin.ext (by match a with | ⟨0, _⟩ => rfl)
  rw [val_main_v59_apply, val_main_v56_apply, val_main_v58_apply, val_main_v57_apply]
  simp only [val_main_v55_apply, hl, hr, hb]
  rfl

/-- The candidate's state-side rows: `h · W_hatUᵀ + b_hatU`. -/
theorem affine_v82 (x1 : (⟨S16384x512, .f32⟩ : BufTy).Contents (Elt Ideal)) (x8 : (⟨S512x512, .f32⟩ : BufTy).Contents (Elt Ideal))
    (x9 : (⟨S512, .f32⟩ : BufTy).Contents (Elt Ideal)) (r : Fin 16384) (c : Fin 512) :
    val_main_v82 (F := Ideal) x1 x8 x9 (ix2 r c)
      = affine (fun k : Fin 512 => x1 (ix2 r k)) (fun (c' : Fin 512) (k : Fin 512) => x8 (ix2 c' k)) (fun c' : Fin 512 => x9 (ix1 c')) c := by
  have hl : ∀ k : Fin 512, lidx_main_v79 (ix2 r c) k = ix2 r k := fun k =>
    funext fun a => Fin.ext (by match a with | ⟨0, _⟩ => rfl | ⟨1, _⟩ => rfl)
  have hr : ∀ k : Fin 512, idx_main_v78 (ridx_main_v79 (ix2 r c) k) = ix2 c k := fun k =>
    funext fun a => Fin.ext (by match a with | ⟨0, _⟩ => rfl | ⟨1, _⟩ => rfl)
  have hb : idx_main_v80 (idx_main_v81 (ix2 r c)) = ix1 c :=
    funext fun a => Fin.ext (by match a with | ⟨0, _⟩ => rfl)
  rw [val_main_v82_apply, val_main_v79_apply, val_main_v81_apply, val_main_v80_apply]
  simp only [val_main_v78_apply, hl, hr, hb]
  rfl

end Cert.ReferenceIdeal.RefValue

end
-- ==== Proof.RefNorm.lean ====
/-
  The reference's four layer normalisations at an entry: the row's mean and variance are sums over the row divided by
  the count, and the entry is the centred entry over the square root of the variance plus `ε`.
-/
import proofs.«175681_j4776003633435_2_alg».proof.Proof.Gen.ReferenceIdeal.Read
import proofs.«175681_j4776003633435_2_alg».proof.Proof.Cell

noncomputable section

namespace Cert.ReferenceIdeal.RefValue

open Cert.ReferenceIdeal Cert.ReferenceIdeal.Gen Cert.ReferenceIdeal.Read Idealize.ShloMosaic Idealize.ShloMosaic.ValueIdx Cert.GruRow

/-- The gates' input-side rows, normalised. -/
theorem norm_v22 (x0 : (⟨S16384x512, .f32⟩ : BufTy).Contents (Elt Ideal)) (x2 : (⟨S1024x512, .f32⟩ : BufTy).Contents (Elt Ideal)) (x3 : (⟨S1024, .f32⟩ : BufTy).Contents (Elt Ideal)) (r : Fin 16384) (c : Fin 1024) :
    val_main_v22 (F := Ideal) x0 x2 x3 (ix2 r c)
      = normDiv N1 eps (fun c' : Fin 1024 => val_main_v4 (F := Ideal) x0 x2 x3 (ix2 r c')) c := by
  have h16 : idx_main_v16 (ix2 r c) = ix2 r (0 : Fin 1) := funext fun a => Fin.ext (by match a with | ⟨0, _⟩ => rfl | ⟨1, _⟩ => rfl)
  have h21 : idx_main_v21 (ix2 r c) = ix2 r (0 : Fin 1) := funext fun a => Fin.ext (by match a with | ⟨0, _⟩ => rfl | ⟨1, _⟩ => rfl)
  have h9 : ∀ k : Fin 1024, idx_main_v9 (ix2 r k) = ix2 r (0 : Fin 1) := fun k =>
    funext fun a => Fin.ext (by match a with | ⟨0, _⟩ => rfl | ⟨1, _⟩ => rfl)
  have h6 : idx_main_v6 (ix2 r (0 : Fin 1)) = ix1 r := funext fun a => Fin.ext (by match a with | ⟨0, _⟩ => rfl)
  have h13 : idx_main_v13 (ix2 r (0 : Fin 1)) = ix1 r := funext fun a => Fin.ext (by match a with | ⟨0, _⟩ => rfl)
  have h5 : ∀ k : Fin 1024, idx_main_v5 (ix1 r) k = ix2 r k := fun k =>
    funext fun a => Fin.ext (by match a with | ⟨0, _⟩ => rfl | ⟨1, _⟩ => rfl)
  have h12 : ∀ k : Fin 1024, idx_main_v12 (ix1 r) k = ix2 r k := fun k =>
    funext fun a => Fin.ext (by match a with | ⟨0, _⟩ => rfl | ⟨1, _⟩ => rfl)
  have hm : val_main_v8 (F := Ideal) x0 x2 x3 (ix2 r (0 : Fin 1)) = mean N1 (fun c' : Fin 1024 => val_main_v4 (F := Ideal) x0 x2 x3 (ix2 r c')) := by
    rw [val_main_v8_apply, val_main_v6_apply, h6, val_main_v5_apply, val_main_v7_apply, val_main_cst_0_apply, val_main_cst_apply]
    simp only [h5]
    show Ideal.div (Ideal.ofBits .f32 0x00000000#32 + _) _ = _
    rw [Ideal.ofBits_zero_f32, zero_add]
    rfl
  rw [val_main_v22_apply, val_main_v17_apply, val_main_v16_apply, h16, hm, val_main_v21_apply, h21, val_main_v20_apply, val_main_v19_apply, val_main_v15_apply,
    val_main_v13_apply, h13, val_main_v12_apply, val_main_v14_apply, val_main_cst_2_apply, val_main_cst_1_apply, val_main_v18_apply, val_main_cst_3_apply]
  simp only [h12, val_main_v11_apply, val_main_v10_apply, val_main_v9_apply, h9, hm]
  show Ideal.div _ (Ideal.sqrt (Ideal.div (Ideal.ofBits .f32 0x00000000#32 + _) _ + _)) = _
  rw [Ideal.ofBits_zero_f32, zero_add]
  rfl

/-- The gates' state-side rows, normalised. -/
theorem norm_v45 (x1 : (⟨S16384x512, .f32⟩ : BufTy).Contents (Elt Ideal)) (x4 : (⟨S1024x512, .f32⟩ : BufTy).Contents (Elt Ideal)) (x5 : (⟨S1024, .f32⟩ : BufTy).Contents (Elt Ideal)) (r : Fin 16384) (c : Fin 1024) :
    val_main_v45 (F := Ideal) x1 x4 x5 (ix2 r c)
      = normDiv N1 eps (fun c' : Fin 1024 => val_main_v27 (F := Ideal) x1 x4 x5 (ix2 r c')) c := by
  have h16 : idx_main_v39 (ix2 r c) = ix2 r (0 : Fin 1) := funext fun a => Fin.ext (by match a with | ⟨0, _⟩ => rfl | ⟨1, _⟩ => rfl)
  have h21 : idx_main_v44 (ix2 r c) = ix2 r (0 : Fin 1) := funext fun a => Fin.ext (by match a with | ⟨0, _⟩ => rfl | ⟨1, _⟩ => rfl)
  have h9 : ∀ k : Fin 1024, idx_main_v32 (ix2 r k) = ix2 r (0 : Fin 1) := fun k =>
    funext fun a => Fin.ext (by match a with | ⟨0, _⟩ => rfl | ⟨1, _⟩ => rfl)
  have h6 : idx_main_v29 (ix2 r (0 : Fin 1)) = ix1 r := funext fun a => Fin.ext (by match a with | ⟨0, _⟩ => rfl)
  have h13 : idx_main_v36 (ix2 r (0 : Fin 1)) = ix1 r := funext fun a => Fin.ext (by match a with | ⟨0, _⟩ => rfl)
  have h5 : ∀ k : Fin 1024, idx_main_v28 (ix1 r) k = ix2 r k := fun k =>
    funext fun a => Fin.ext (by match a with | ⟨0, _⟩ => rfl | ⟨1, _⟩ => rfl)
  have h12 : ∀ k : Fin 1024, idx_main_v35 (ix1 r) k = ix2 r k := fun k =>
    funext fun a => Fin.ext (by match a with | ⟨0, _⟩ => rfl | ⟨1, _⟩ => rfl)
  have hm : val_main_v31 (F := Ideal) x1 x4 x5 (ix2 r (0 : Fin 1)) = mean N1 (fun c' : Fin 1024 => val_main_v27 (F := Ideal) x1 x4 x5 (ix2 r c')) := by
    rw [val_main_v31_apply, val_main_v29_apply, h6, val_main_v28_apply, val_main_v30_apply, val_main_cst_5_apply, val_main_cst_4_apply]
    simp only [h5]
    show Ideal.div (Ideal.ofBits .f32 0x00000000#32 + _) _ = _
    rw [Ideal.ofBits_zero_f32, zero_add]
    rfl
  rw [val_main_v45_apply, val_main_v40_apply, val_main_v39_apply, h16, hm, val_main_v44_apply, h21, val_main_v43_apply, val_main_v42_apply, val_main_v38_apply,
    val_main_v36_apply, h13, val_main_v35_apply, val_main_v37_apply, val_main_cst_7_apply, val_main_cst_6_apply, val_main_v41_apply, val_main_cst_8_apply]
  simp only [h12, val_main_v34_apply, val_main_v33_apply, val_main_v32_apply, h9, hm]
  show Ideal.div _ (Ideal.sqrt (Ideal.div (Ideal.ofBits .f32 0x00000000#32 + _) _ + _)) = _
  rw [Ideal.ofBits_zero_f32, zero_add]
  rfl

/-- The candidate's input-side rows, normalised. -/
theorem norm_v77 (x0 : (⟨S16384x512, .f32⟩ : BufTy).Contents (Elt Ideal)) (x6 : (⟨S512x512, .f32⟩ : BufTy).Contents (Elt Ideal)) (x7 : (⟨S512, .f32⟩ : BufTy).Contents (Elt Ideal)) (r : Fin 16384) (c : Fin 512) :
    val_main_v77 (F := Ideal) x0 x6 x7 (ix2 r c)
      = normDiv N2 eps (fun c' : Fin 512 => val_main_v59 (F := Ideal) x0 x6 x7 (ix2 r c')) c := by
  have h16 : idx_main_v71 (ix2 r c) = ix2 r (0 : Fin 1) := funext fun a => Fin.ext (by match a with | ⟨0, _⟩ => rfl | ⟨1, _⟩ => rfl)
  have h21 : idx_main_v76 (ix2 r c) = ix2 r (0 : Fin 1) := funext fun a => Fin.ext (by match a with | ⟨0, _⟩ => rfl | ⟨1, _⟩ => rfl)
  have h9 : ∀ k : Fin 512, idx_main_v64 (ix2 r k) = ix2 r (0 : Fin 1) := fun k =>
    funext fun a => Fin.ext (by match a with | ⟨0, _⟩ => rfl | ⟨1, _⟩ => rfl)
  have h6 : idx_main_v61 (ix2 r (0 : Fin 1)) = ix1 r := funext fun a => Fin.ext (by match a with | ⟨0, _⟩ => rfl)
  have h13 : idx_main_v68 (ix2 r (0 : Fin 1)) = ix1 r := funext fun a => Fin.ext (by match a with | ⟨0, _⟩ => rfl)
  have h5 : ∀ k : Fin 512, idx_main_v60 (ix1 r) k = ix2 r k := fun k =>
    funext fun a => Fin.ext (by match a with | ⟨0, _⟩ => rfl | ⟨1, _⟩ => rfl)
  have h12 : ∀ k : Fin 512, idx_main_v67 (ix1 r) k = ix2 r k := fun k =>
    funext fun a => Fin.ext (by match a with | ⟨0, _⟩ => rfl | ⟨1, _⟩ => rfl)
  have hm : val_main_v63 (F := Ideal) x0 x6 x7 (ix2 r (0 : Fin 1)) = mean N2 (fun c' : Fin 512 => val_main_v59 (F := Ideal) x0 x6 x7 (ix2 r c')) := by
    rw [val_main_v63_apply, val_main_v61_apply, h6, val_main_v60_apply, val_main_v62_apply, val_main_cst_12_apply, val_main_cst_11_apply]
    simp only [h5]
    show Ideal.div (Ideal.ofBits .f32 0x00000000#32 + _) _ = _
    rw [Ideal.ofBits_zero_f32, zero_add]
    rfl
  rw [val_main_v77_apply, val_main_v72_apply, val_main_v71_apply, h16, hm, val_main_v76_apply, h21, val_main_v75_apply, val_main_v74_apply, val_main_v70_apply,
    val_main_v68_apply, h13, val_main_v67_apply, val_main_v69_apply, val_main_cst_14_apply, val_main_cst_13_apply, val_main_v73_apply, val_main_cst_15_apply]
  simp only [h12, val_main_v66_apply, val_main_v65_apply, val_main_v64_apply, h9, hm]
  show Ideal.div _ (Ideal.sqrt (Ideal.div (Ideal.ofBits .f32 0x00000000#32 + _) _ + _)) = _
  rw [Ideal.ofBits_zero_f32, zero_add]
  rfl

/-- The candidate's state-side rows, normalised. -/
theorem norm_v100 (x1 : (⟨S16384x512, .f32⟩ : BufTy).Contents (Elt Ideal)) (x8 : (⟨S512x512, .f32⟩ : BufTy).Contents (Elt Ideal)) (x9 : (⟨S512, .f32⟩ : BufTy).Contents (Elt Ideal)) (r : Fin 16384) (c : Fin 512) :
    val_main_v100 (F := Ideal) x1 x8 x9 (ix2 r c)
      = normDiv N2 eps (fun c' : Fin 512 => val_main_v82 (F := Ideal) x1 x8 x9 (ix2 r c')) c := by
  have h16 : idx_main_v94 (ix2 r c) = ix2 r (0 : Fin 1) := funext fun a => Fin.ext (by match a with | ⟨0, _⟩ => rfl | ⟨1, _⟩ => rfl)
  have h21 : idx_main_v99 (ix2 r c) = ix2 r (0 : Fin 1) := funext fun a => Fin.ext (by match a with | ⟨0, _⟩ => rfl | ⟨1, _⟩ => rfl)
  have h9 : ∀ k : Fin 512, idx_main_v87 (ix2 r k) = ix2 r (0 : Fin 1) := fun k =>
    funext fun a => Fin.ext (by match a with | ⟨0, _⟩ => rfl | ⟨1, _⟩ => rfl)
  have h6 : idx_main_v84 (ix2 r (0 : Fin 1)) = ix1 r := funext fun a => Fin.ext (by match a with | ⟨0, _⟩ => rfl)
  have h13 : idx_main_v91 (ix2 r (0 : Fin 1)) = ix1 r := funext fun a => Fin.ext (by match a with | ⟨0, _⟩ => rfl)
  have h5 : ∀ k : Fin 512, idx_main_v83 (ix1 r) k = ix2 r k := fun k =>
    funext fun a => Fin.ext (by match a with | ⟨0, _⟩ => rfl | ⟨1, _⟩ => rfl)
  have h12 : ∀ k : Fin 512, idx_main_v90 (ix1 r) k = ix2 r k := fun k =>
    funext fun a => Fin.ext (by match a with | ⟨0, _⟩ => rfl | ⟨1, _⟩ => rfl)
  have hm : val_main_v86 (F := Ideal) x1 x8 x9 (ix2 r (0 : Fin 1)) = mean N2 (fun c' : Fin 512 => val_main_v82 (F := Ideal) x1 x8 x9 (ix2 r c')) := by
    rw [val_main_v86_apply, val_main_v84_apply, h6, val_main_v83_apply, val_main_v85_apply, val_main_cst_17_apply, val_main_cst_16_apply]
    simp only [h5]
    show Ideal.div (Ideal.ofBits .f32 0x00000000#32 + _) _ = _
    rw [Ideal.ofBits_zero_f32, zero_add]
    rfl
  rw [val_main_v100_apply, val_main_v95_apply, val_main_v94_apply, h16, hm, val_main_v99_apply, h21, val_main_v98_apply, val_main_v97_apply, val_main_v93_apply,
    val_main_v91_apply, h13, val_main_v90_apply, val_main_v92_apply, val_main_cst_19_apply, val_main_cst_18_apply, val_main_v96_apply, val_main_cst_20_apply]
  simp only [h12, val_main_v89_apply, val_main_v88_apply, val_main_v87_apply, h9, hm]
  show Ideal.div _ (Ideal.sqrt (Ideal.div (Ideal.ofBits .f32 0x00000000#32 + _) _ + _)) = _
  rw [Ideal.ofBits_zero_f32, zero_add]
  rfl

end Cert.ReferenceIdeal.RefValue

end
-- ==== Proof.RefCell.lean ====
/-
  The reference's result array is the cell array: at `(r, q)` the gates are the logistic function (spelt out as
  `1 / (1 + e^{-s})`) of the sum of the two normalised gate rows, the update gate their column `q`, the reset gate their
  column `q + 512`, and the new state the convex combination of the state and the candidate.
-/
import proofs.«175681_j4776003633435_2_alg».proof.Proof.Gen.ReferenceIdeal.Read
import proofs.«175681_j4776003633435_2_alg».proof.Proof.RefAffine
import proofs.«175681_j4776003633435_2_alg».proof.Proof.RefNorm
import proofs.«175681_j4776003633435_2_alg».proof.Proof.ArraySpec

noncomputable section

namespace Cert.ReferenceIdeal.RefValue

open Cert.ReferenceIdeal Cert.ReferenceIdeal.Gen Cert.ReferenceIdeal.Read Idealize.ShloMosaic Idealize.ShloMosaic.ValueIdx Cert.GruRow

/-- The gates at `(r, c)`. -/
theorem gate_v52 (x0 : (⟨S16384x512, .f32⟩ : BufTy).Contents (Elt Ideal)) (x1 : (⟨S16384x512, .f32⟩ : BufTy).Contents (Elt Ideal)) (x2 : (⟨S1024x512, .f32⟩ : BufTy).Contents (Elt Ideal)) (x3 : (⟨S1024, .f32⟩ : BufTy).Contents (Elt Ideal)) (x4 : (⟨S1024x512, .f32⟩ : BufTy).Contents (Elt Ideal)) (x5 : (⟨S1024, .f32⟩ : BufTy).Contents (Elt Ideal)) (r : Fin 16384) (c : Fin 1024) :
    val_main_v52 (F := Ideal) x0 x1 x2 x3 x4 x5 (ix2 r c)
      = Ideal.logistic (val_main_v22 (F := Ideal) x0 x2 x3 (ix2 r c) + val_main_v45 (F := Ideal) x1 x4 x5 (ix2 r c)) := by
  rw [val_main_v52_apply, val_main_v51_apply, val_main_cst_10_apply, val_main_v50_apply, val_main_v49_apply, val_main_cst_9_apply,
    val_main_v48_apply, val_main_v47_apply, val_main_v46_apply]
  exact logistic_eq _

/-- The reference's result is the cell array of its ten arguments. -/
theorem result_eq (x0 : (⟨S16384x512, .f32⟩ : BufTy).Contents (Elt Ideal)) (x1 : (⟨S16384x512, .f32⟩ : BufTy).Contents (Elt Ideal)) (x2 : (⟨S1024x512, .f32⟩ : BufTy).Contents (Elt Ideal)) (x3 : (⟨S1024, .f32⟩ : BufTy).Contents (Elt Ideal)) (x4 : (⟨S1024x512, .f32⟩ : BufTy).Contents (Elt Ideal)) (x5 : (⟨S1024, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) :
    val_main_v108 (F := Ideal) x0 x1 x2 x3 x4 x5 x6 x7 x8 x9 = cellArray x0 x1 x2 x3 x4 x5 x6 x7 x8 x9 := by
  funext i
  obtain ⟨r, q, rfl⟩ : ∃ (r : Fin 16384) (q : Fin 512), i = ix2 r q := ⟨i 0, i 1, eq_ix2 i⟩
  have h53 : idx_main_v53 (ix2 r q) = ix2 r (⟨q.val, by omega⟩ : Fin 1024) :=
    funext fun a => Fin.ext (by match a with | ⟨0, _⟩ => rfl | ⟨1, _⟩ => rfl)
  have h54 : idx_main_v54 (ix2 r q) = ix2 r (⟨q.val + 512, by omega⟩ : Fin 1024) :=
    funext fun a => Fin.ext (by match a with | ⟨0, _⟩ => rfl | ⟨1, _⟩ => show 512 + q.val = q.val + 512; omega)
  rw [cellArray_ix2, val_main_v108_apply, val_main_v106_apply, val_main_v105_apply, val_main_v104_apply, val_main_cst_21_apply,
    val_main_v107_apply, val_main_v103_apply, val_main_v102_apply, val_main_v101_apply, val_main_v53_apply, val_main_v54_apply, h53, h54]
  simp only [gate_v52, norm_v22, norm_v45, norm_v77, norm_v100, affine_v4, affine_v27, affine_v59, affine_v82]
  rfl

end Cert.ReferenceIdeal.RefValue

end
-- ==== Proof.lean ====
/-
  A layer-normalised gated recurrent cell over `[16384, 512]` inputs and states: the kernel against its reference, as
  extended reals.

  The kernel tiles the rows in 32 blocks of 512. In each block it multiplies the input rows and the state rows by two
  stacked weight matrices (the gate weights above the candidate weights, stacked once before the launch), adds the
  joined biases, normalises the first 1024 and the last 512 columns of each product separately, and combines them
  through the logistic function and the hyperbolic tangent. The reference does the four products separately, on the
  whole arrays. Three things differ in the texts and none in the values: a product against stacked weights, sliced, is
  the separate products; the reference spells the logistic function as `1 / (1 + e^{-s})`, which is its definition; and
  the kernel normalises by the reciprocal square root of the variance plus `ε` where the reference divides by the
  square root — equal because the variance, a mean of squares, is nonnegative, so that the radicand is a positive real
  or `+∞` (Proof/RowLaw.lean). No finiteness of the inputs is used.

  Both results are the one array `Cert.GruRow.cellArray` of the ten arguments (Proof/ArraySpec.lean): the kernel's by
  Proof/KernelArray.lean, the reference's by Proof/RefCell.lean.
-/
import proofs.«175681_j4776003633435_2_alg».proof.Defs
import proofs.«175681_j4776003633435_2_alg».proof.Proof.Gen.Kernel
import proofs.«175681_j4776003633435_2_alg».proof.Proof.Gen.Kernel.Skeleton
import proofs.«175681_j4776003633435_2_alg».proof.Proof.Gen.Kernel.Launch
import proofs.«175681_j4776003633435_2_alg».proof.Proof.Gen.Kernel.Points
import proofs.«175681_j4776003633435_2_alg».proof.Proof.Gen.Kernel.Frame
import proofs.«175681_j4776003633435_2_alg».proof.Proof.Gen.KernelIdeal
import proofs.«175681_j4776003633435_2_alg».proof.Proof.Gen.KernelIdeal.Skeleton
import proofs.«175681_j4776003633435_2_alg».proof.Proof.Gen.KernelIdeal.Launch
import proofs.«175681_j4776003633435_2_alg».proof.Proof.Gen.KernelIdeal.Points
import proofs.«175681_j4776003633435_2_alg».proof.Proof.Gen.KernelIdeal.Frame
import proofs.«175681_j4776003633435_2_alg».proof.Proof.Gen.ReferenceIdeal
import proofs.«175681_j4776003633435_2_alg».proof.Proof.Gen.ReferenceIdeal.Run
import proofs.«175681_j4776003633435_2_alg».proof.Proof.Gen.ReferenceIdeal.Read
import proofs.«175681_j4776003633435_2_alg».proof.Proof.Gen.Pre_finite_inputs
import proofs.«175681_j4776003633435_2_alg».proof.Proof.KernelArray
import proofs.«175681_j4776003633435_2_alg».proof.Proof.RefCell
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the cell array of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v108_eq, Cert.ReferenceIdeal.RefValue.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
